-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S10000x64 : Shape := ⟨2, ![10000, 64]⟩
abbrev S100000x1 : Shape := ⟨2, ![100000, 1]⟩
abbrev S1700000x64 : Shape := ⟨2, ![1700000, 64]⟩
abbrev S50000x128 : Shape := ⟨2, ![50000, 128]⟩
abbrev S5000x128 : Shape := ⟨2, ![5000, 128]⟩

abbrev nBuf : Space → Nat
  | .hbm => 74
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S1x64, .f32⟩
  | .hbm, ⟨30, _⟩ => ⟨S100000x64, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .f32⟩
  | .hbm, ⟨43, _⟩ => ⟨S_, .f32⟩
  | .hbm, ⟨44, _⟩ => ⟨S100000x64, .f32⟩
  | .hbm, ⟨45, _⟩ => ⟨S1700000x1, .i32⟩
  | .hbm, ⟨46, _⟩ => ⟨S100000x64, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S50000x128, .f32⟩
  | .hbm, ⟨72, _⟩ => ⟨S50000x128, .f32⟩
  | .hbm, ⟨73, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S10000x64_S10000x64 : S10000x64.ShapeCasts S10000x64
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S100000x64 : S50000x128.ShapeCasts S100000x64
  scatter_S100000_S1700000x1_S1700000_n_0_0_1_wf : ScatterDims.WF S100000 S1700000x1 S1700000 [] [0] [0] 1
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x64 : Shape := ⟨2, ![1, 64]⟩
abbrev S_ : Shape := ⟨0, ![]⟩
abbrev S1700000x1 : Shape := ⟨2, ![1700000, 1]⟩
abbrev S1700000x64 : Shape := ⟨2, ![1700000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S64x64, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S1700000x1, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_15 : Ref sig .tc := ⟨.hbm, 97, rfl⟩
abbrev main_v74 : Ref sig .tc := ⟨.hbm, 98, rfl⟩
abbrev main_v75 : Ref sig .tc := ⟨.hbm, 99, rfl⟩
abbrev main_c_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its RESULT named.

  The program is three kernel launches among stretches of host operations. Its run from a memory `m` passes through
  nine boundaries; the contents of every buffer at each boundary are a fold from `m`: a host stretch applies its
  operations, a launch leaves each of its arrays at what its write-backs leave and every other buffer alone. The last
  boundary's contents are `W9 m ρ c`. Every weakly fair execution terminates, nothing faulting, with every buffer
  outside the launches' scopes at those contents: in particular the result buffer, and the argument arrays, which no
  operation and no launch writes.
-/
import proofs.«177543_j43164421325168_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Val

end
-- ==== Proof.KernelHost.lean ====
/-
  The kernel program's host operations between its launches, as whole-array functions.

  Every buffer's contents at a boundary of the program is a fold from the launch memory (the generated run's `W0` … `W9`).
  Read off that fold here: the edge lists `row`, `col` (the two rows of the edge index, each followed by the self
  loops `0 … N-1`), the degree (a scatter-add of ones at `row`), its guarded inverse square root `dis`, and the
  aggregation that follows each dense layer — scale the features by `dis`, gather the rows at the wrapped `row`,
  scatter-add them at `col`, scale by `dis` again.
-/
import proofs.«177543_j43164421325168_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.StableHlo
open Idealize.SL.Sem

/-! ## The whole-array functions -/

/-- The edges' source nodes: row 0 of the edge index, then the self loops. -/
def rowIdx (ei : IVec S2x1600000 32) : IVec S1700000 32 :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The edges' target nodes: row 1 of the edge index, then the self loops. -/
def colIdx (ei : IVec S2x1600000 32) : IVec S1700000 32 :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- The degree: ones added up at the edges' source nodes. -/
def degK (R : IVec S1700000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 R)
    (broadcastInDim S1700000 ![] bcast_S_S1700000 (constant S_ .f32 0x3F800000#32))

/-- The guarded inverse square root of the degree: `deg > 0 ? deg ^ (-1/2) : 0`. -/
def disK (R : IVec S1700000 32) : FVec Ideal S100000 .f32 :=
  select (cmpf .ogt (degK R) (broadcastInDim S100000 ![] bcast_S_S100000 (constant S_ .f32 0x00000000#32)))
    (Host.powf (degK R) (broadcastInDim S100000 ![] bcast_S_S100000 (constant S_ .f32 0xBF000000#32)))
    (broadcastInDim S100000 ![] bcast_S_S100000 (id (constant S_ .f32 0x00000000#32)))

/-- An index list wrapped (a negative entry counted from the end) and made a column: what a gather is given. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The aggregation after a dense layer: scale by `dis`, gather at `row`, scatter-add at `col`, scale by `dis`. -/
def aggK (dis : FVec Ideal S100000 .f32) (R C : IVec S1700000 32) (h : FVec Ideal S100000x64 .f32) :
    FVec Ideal S100000x64 .f32 :=
  mulf (broadcastInDim S100000x64 ![0, 1] bcast_S100000x1_S100000x64_0_1 (broadcastInDim S100000x1 ![0] bcast_S100000_S100000x1_0 dis))
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 C)
      (Host.gather gather_S100000x64_S1700000x1_S1700000x64_1_0_n_n_0_1_164
        (mulf (broadcastInDim S100000x64 ![0, 1] bcast_S100000x1_S100000x64_0_1 (broadcastInDim S100000x1 ![0] bcast_S100000_S100000x1_0 dis)) h)
        (wrapCol R)))

/-! ## The boundaries' contents -/

variable (m : (ℓ : Loc nD τ sig) → Buf (Elt Ideal) ℓ) (ρ : Dev nD → PrngReg)

set_option maxRecDepth 131072 in
set_option maxHeartbeats 4000000 in
/-- Before the first launch: `dis`. -/
theorem W3_dis (c : Dev nD) : W3 m ρ c (Proc.devRef .tc main_v15) = disK (rowIdx (m ((c : Thread nD τ).loc main_arg1))) := by
  show StableHlo.after hostOps0_2 (StableHlo.after hostOps0_1 (StableHlo.after hostOps0 (W0 m ρ c))) (Proc.devRef .tc main_v15) = _
  after_results
  refine (cast_eq _ _).trans ?_
  unfold disK
  congr 1
  all_goals exact (cast_eq _ _).trans rfl

/-- Before the first launch: `row`. -/
theorem W3_row (c : Dev nD) : W3 m ρ c (Proc.devRef .tc main_v3) = rowIdx (m ((c : Thread nD τ).loc main_arg1)) := by
  show StableHlo.after hostOps0_2 (StableHlo.after hostOps0_1 (StableHlo.after hostOps0 (W0 m ρ c))) (Proc.devRef .tc main_v3) = _
  after_results
  rfl

/-- Before the first launch: `col`. -/
theorem W3_col (c : Dev nD) : W3 m ρ c (Proc.devRef .tc main_v6) = colIdx (m ((c : Thread nD τ).loc main_arg1)) := by
  show StableHlo.after hostOps0_2 (StableHlo.after hostOps0_1 (StableHlo.after hostOps0 (W0 m ρ c))) (Proc.devRef .tc main_v6) = _
  after_results
  rfl

/-- Before the first launch: the first bias as a row. -/
theorem W3_bias (c : Dev nD) : W3 m ρ c (Proc.devRef .tc main_v16) = shapeCast S1x64 (m ((c : Thread nD τ).loc main_arg3)) shapeCasts_S64_S1x64 := by
  show StableHlo.after hostOps0_2 (StableHlo.after hostOps0_1 (StableHlo.after hostOps0 (W0 m ρ c))) (Proc.devRef .tc main_v16) = _
  after_results
  rfl

/-- Before the first launch: the node features and the first weights are the arguments. -/
theorem W3_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem W3_w (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

set_option maxHeartbeats 4000000 in
/-- Between the first two launches: the first aggregation, of what the first launch left. -/
theorem W5_agg (c : Dev nD) : W5 m ρ c (Proc.devRef .tc main_v33)
    = aggK (W4 m ρ c (Proc.devRef .tc main_v15)) (W4 m ρ c (Proc.devRef .tc main_v3)) (W4 m ρ c (Proc.devRef .tc main_v6))
        (W4 m ρ c (Proc.devRef .tc main_v17)) := by
  show StableHlo.after hostOps1 (W4 m ρ c) (Proc.devRef .tc main_v33) = _
  generalize W4 m ρ c = Wv
  after_results_simp
  rfl

/-- Between the first two launches: the second bias as a row. -/
theorem W5_bias (c : Dev nD) : W5 m ρ c (Proc.devRef .tc main_v34)
    = shapeCast S1x64 (W4 m ρ c (Proc.devRef .tc main_arg5)) shapeCasts_S64_S1x64 := by
  show StableHlo.after hostOps1 (W4 m ρ c) (Proc.devRef .tc main_v34) = _
  after_results
  rfl

/-- The host operations between the first two launches leave `dis`, `row`, `col` and the second weights alone. -/
theorem W5_dis (c : Dev nD) : W5 m ρ c (Proc.devRef .tc main_v15) = W4 m ρ c (Proc.devRef .tc main_v15) := by
  show StableHlo.after hostOps1 (W4 m ρ c) (Proc.devRef .tc main_v15) = _
  after_results
theorem W5_row (c : Dev nD) : W5 m ρ c (Proc.devRef .tc main_v3) = W4 m ρ c (Proc.devRef .tc main_v3) := by
  show StableHlo.after hostOps1 (W4 m ρ c) (Proc.devRef .tc main_v3) = _
  after_results
theorem W5_col (c : Dev nD) : W5 m ρ c (Proc.devRef .tc main_v6) = W4 m ρ c (Proc.devRef .tc main_v6) := by
  show StableHlo.after hostOps1 (W4 m ρ c) (Proc.devRef .tc main_v6) = _
  after_results
theorem W5_w (c : Dev nD) : W5 m ρ c (Proc.devRef .tc main_arg4) = W4 m ρ c (Proc.devRef .tc main_arg4) := by
  show StableHlo.after hostOps1 (W4 m ρ c) (Proc.devRef .tc main_arg4) = _
  after_results

set_option maxHeartbeats 4000000 in
/-- Between the last two launches: the second aggregation, of what the second launch left, flattened to [50000, 128]. -/
theorem W7_agg (c : Dev nD) : W7 m ρ c (Proc.devRef .tc main_v52)
    = shapeCast S50000x128 (aggK (W6 m ρ c (Proc.devRef .tc main_v15)) (W6 m ρ c (Proc.devRef .tc main_v3))
        (W6 m ρ c (Proc.devRef .tc main_v6)) (W6 m ρ c (Proc.devRef .tc main_v35))) shapeCasts_S100000x64_S50000x128 := by
  show StableHlo.after hostOps2 (W6 m ρ c) (Proc.devRef .tc main_v52) = _
  generalize W6 m ρ c = Wv
  after_results_simp
  rfl

/-- After the last launch: its output, taken back to [100000, 64]. -/
theorem W9_out (c : Dev nD) : W9 m ρ c (Proc.devRef .tc main_v54)
    = shapeCast S100000x64 (W8 m ρ c (Proc.devRef .tc main_v53)) shapeCasts_S50000x128_S100000x64 := by
  show StableHlo.after hostOps3 (W8 m ρ c) (Proc.devRef .tc main_v54) = _
  after_results
  rfl

/-- Before the first launch: the second weights and bias are the arguments. -/
theorem W3_w2 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem W3_b2 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

end Cert.KernelIdeal.Val

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LinSpec.lean ====
/-
  A dense layer `x · Wᵀ + b` over [100000, 64] node features, as one function index by index.

  Entry `(i, j)` is the sum over `k` of `x[i, k] · W[j, k]` plus the bias `b[j]`: the weight matrix is stored output
  feature first (`W : [out, in]`), so both operands are read along their second axis. `linRow` is the same with the
  bias given as a `[1, 64]` row.
-/
import Idealize.ShloMosaic.PureOps.Ideal
import Idealize.ShloMosaic.Lib.ValueIdx
import Idealize.ShloMosaic.Lib.Pipeline.Value

noncomputable section

namespace Cert.Gcn

open Idealize.ShloMosaic Idealize.ShloMosaic.ValueIdx

/-- The dense layer with a `[64]` bias. -/
def lin (x : (⟨2, ![100000, 64]⟩ : Shape).Idx → EReal) (w : (⟨2, ![64, 64]⟩ : Shape).Idx → EReal)
    (b : (⟨1, ![64]⟩ : Shape).Idx → EReal) : (⟨2, ![100000, 64]⟩ : Shape).Idx → EReal :=
  fun i => (∑ k : Fin 64, x (ix2 (i 0) k) * w (ix2 (i 1) k)) + b (ix1 (i 1))

/-- The dense layer with the bias as a `[1, 64]` row. -/
def linRow (x : (⟨2, ![100000, 64]⟩ : Shape).Idx → EReal) (w : (⟨2, ![64, 64]⟩ : Shape).Idx → EReal)
    (b : (⟨2, ![1, 64]⟩ : Shape).Idx → EReal) : (⟨2, ![100000, 64]⟩ : Shape).Idx → EReal :=
  fun i => (∑ k : Fin 64, x (ix2 (i 0) k) * w (ix2 (i 1) k)) + b (ix2 (0 : Fin 1) (i 1))

/-- A `[64]` bias reshaped to a `[1, 64]` row gives the same layer. -/
theorem linRow_reshape (x : (⟨2, ![100000, 64]⟩ : Shape).Idx → EReal) (w : (⟨2, ![64, 64]⟩ : Shape).Idx → EReal)
    (b : (⟨1, ![64]⟩ : Shape).Idx → EReal) (h : (⟨1, ![64]⟩ : Shape).ShapeCasts ⟨2, ![1, 64]⟩) :
    linRow x w (shapeCast ⟨2, ![1, 64]⟩ b h) = lin x w b := by
  funext i
  unfold linRow lin
  rw [shapeCast_apply b h (ix2 (0 : Fin 1) (i 1)) (ix1 (i 1)) (by
    rw [Shape.rowMajor_val_one, Shape.rowMajor_val_two]
    show (i 1).val = 0 * 64 + (i 1).val
    omega)]

end Cert.Gcn

end
-- ==== Proof.Launch0.lean ====
/-
  The first kernel launch, read as one function of the arrays it is entered with.

  The launch walks the [100000, 64] node features in ten blocks of 10000 rows, with the whole 64×64 weight matrix and the
  [1, 64] bias row in view at every block. The body multiplies the block by the transposed weights on the matrix unit
  (both operands narrowed to bf16 first: the identity on the extended reals) into a zero accumulator and adds the bias
  row to every row. Block `t` of the output is rows `[10000 t, 10000 (t+1))`, the ten blocks cover the array, and so
  the output array ends as the dense layer `x · Wᵀ + b` of the entry arrays, index by index.
-/
import proofs.«177543_j43164421325168_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«177543_j43164421325168_2_alg».proof.Proof.LibPlainDot
import proofs.«177543_j43164421325168_2_alg».proof.Proof.LinSpec

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero0 : (![0, 0] : Fin 2 → Nat) = fun _ => 0 := funext fun a => by fin_cases a <;> rfl

/-- The body's stored value at row `p`, column `q` of the block: the row of the loaded features against row `q` of
    the weights, plus the bias entry `q`. -/
theorem payload0_apply (x0 : Vec Ideal S10000x64 .f32) (x1 : Vec Ideal S64x64 .f32) (x2 : Vec Ideal S1x64 .f32)
    (p : Fin 10000) (q : Fin 64) :
    k0_pay1 x0 x1 x2 (ix2 p q)
      = (∑ k : Fin 64, x0 (ix2 p k) * x1 (ix2 q k)) + x2 (ix2 (0 : Fin 1) q) := by
  unfold k0_pay1
  show matmul (F := Ideal) dot_S10000x64_S64x64_S10000x64_1_0_0_1_n_n none (truncf .bf16 x0 bitsLt_bf16_f32)
        (transpose S64x64 [1, 0] (truncf .bf16 x1 bitsLt_bf16_f32) transposes_S64x64_p1_0_S64x64)
        (constant (F := Ideal) S10000x64 .f32 0x00000000#32) (ix2 p q)
      + broadcastTo S10000x64 (shapeCast S1x64 x2 shapeCasts_S1x64_S1x64) broadcasts_S1x64_S10000x64 (ix2 p q) = _
  refine congrArg₂ (· + ·) ?_ ?_
  · refine (Cert.Lib.plain_matmul_zero_apply 10000 64 64 none _ _ p q).trans ?_
    refine Finset.sum_congr rfl fun k _ => ?_
    refine congrArg₂ (· * ·) ?_ ?_
    · rfl
    · exact transpose_apply [1, 0] _ transposes_S64x64_p1_0_S64x64 (ix2 k q) (ix2 q k) (fun b => by
        match b with
        | ⟨0, _⟩ => rfl
        | ⟨1, _⟩ => rfl)
  · rw [shapeCast_self]
    exact broadcastTo_apply x2 broadcasts_S1x64_S10000x64 (ix2 p q) (ix2 (0 : Fin 1) q) (fun a => by
      match a with
      | ⟨0, _⟩ => rfl
      | ⟨1, _⟩ => rfl)

/-- The launch's index maps over its ten points: the feature blocks and the output blocks move together, block `t` at
    row block `t`; the weights and the bias row stay at their one block. -/
theorem blocks0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 :=
  (by decide +kernel : ∀ t : Fin grid0.N, _)

/-- Every row block is some point's. -/
theorem blocks0_onto : ∀ (q0 : Fin 10), ∃ t : Fin cfg0.N, win0_3.index t = ![q0.val, 0] :=
  (by decide +kernel : ∀ (q0 : Fin 10), ∃ t : Fin grid0.N, win0_3.index t = ![q0.val, 0])

/-- What point `t` writes back is block `t` of the dense layer of the entry arrays. -/
theorem written0 (c : Dev nD) (t : Fin cfg0.N) :
    (dat0 V c).flushed 3 t = ((cfg0.win 3).blk t).view.read (Elt Ideal)
      (Cert.Gcn.linRow (V c main_arg0) (V c main_arg2) (V c main_v16)) := by
  show (cfg0.win 3).cut (grid0.coords t) ((dat0 V c).after 3 t) = _
  rw [after0_3]
  unfold out0_3
  rw [View.canon_unit_zero offsets_zero0]
  simp only [View.ld_unit_zero (S := S10000x64) offsets_zero0, View.ld_unit_zero (S := S64x64) offsets_zero0,
    View.ld_unit_zero (S := S1x64) offsets_zero0]
  obtain ⟨e0, e1, e2, e3, e4, e5, e6, e7⟩ := blocks0 t
  funext y
  obtain ⟨p, q, rfl⟩ : ∃ (p : Fin 10000) (q : Fin 64), y = ix2 p q := ⟨y 0, y 1, eq_ix2 y⟩
  refine (payload0_apply (iblk0 V c 0 t) (iblk0 V c 1 t) (iblk0 V c 2 t) p q).trans ?_
  have hx : ∀ k : Fin 64, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have hw : ∀ k : Fin 64, ((cfg0.win 1).blk t).view.emb (ix2 q k) = ix2 ((((cfg0.win 3).blk t).view.emb (ix2 p q)) 1) k := by
    intro k; funext a; apply Fin.ext
    match a with
    | ⟨0, _⟩ => show win0_1.index t (0 : Fin 2) * 64 + 1 * q.val = win0_3.index t (1 : Fin 2) * 64 + 1 * q.val; omega
    | ⟨1, _⟩ => show win0_1.index t (1 : Fin 2) * 64 + 1 * k.val = k.val; omega
  have hb : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  have key : ∀ (X : S100000x64.Idx → EReal) (W : S64x64.Idx → EReal) (B : S1x64.Idx → EReal),
      (∑ k : Fin 64, X (((cfg0.win 0).blk t).view.emb (ix2 p k)) * W (((cfg0.win 1).blk t).view.emb (ix2 q k)))
        + B (((cfg0.win 2).blk t).view.emb (ix2 (0 : Fin 1) q))
      = (∑ k : Fin 64, X (ix2 ((((cfg0.win 3).blk t).view.emb (ix2 p q)) 0) k) * W (ix2 ((((cfg0.win 3).blk t).view.emb (ix2 p q)) 1) k))
        + B (ix2 (0 : Fin 1) ((((cfg0.win 3).blk t).view.emb (ix2 p q)) 1)) := by
    intro X W B
    rw [hb]
    refine congrArg₂ (· + ·) (Finset.sum_congr rfl fun k _ => ?_) rfl
    rw [hx k, hw k] <;> rfl
  exact key (V c main_arg0) (V c main_arg2) (V c main_v16)

/-- An index of the array is in point `t`'s block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v17).slice (win0_3.rect t)).set ↔ _
  rw [View.set_slice_whole, Rect.mem_set_unit]
  exact Iff.rfl

/-- The ten blocks cover the array. -/
theorem covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := blocks0_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY of the launch: the dense layer of the arrays it is entered with. -/
theorem launch0_result (c : Dev nD) : (dat0 V c).arrAt 3 cfg0.N
    = Cert.Gcn.linRow (V c main_arg0) (V c main_arg2) (V c main_v16) :=
  (dat0 V c).arrAt_eq_of_cover 3 _ (fun t _ => written0 V c t) (covered0)

end Cert.KernelIdeal.Val

end
-- ==== Proof.Launch1.lean ====
/-
  The second kernel launch, read as one function of the arrays it is entered with.

  As the first launch, with the hyperbolic tangent applied to the loaded block of node features before the product: the
  output array ends as the dense layer `tanh(x) · Wᵀ + b` of the entry arrays, index by index.
-/
import proofs.«177543_j43164421325168_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«177543_j43164421325168_2_alg».proof.Proof.LibPlainDot
import proofs.«177543_j43164421325168_2_alg».proof.Proof.LinSpec

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero1 : (![0, 0] : Fin 2 → Nat) = fun _ => 0 := funext fun a => by fin_cases a <;> rfl

/-- The body's stored value at row `p`, column `q` of the block: the row of the tangents of the loaded features against row `q` of
    the weights, plus the bias entry `q`. -/
theorem payload1_apply (x0 : Vec Ideal S10000x64 .f32) (x1 : Vec Ideal S64x64 .f32) (x2 : Vec Ideal S1x64 .f32)
    (p : Fin 10000) (q : Fin 64) :
    k1_pay1 x0 x1 x2 (ix2 p q)
      = (∑ k : Fin 64, Ideal.tanh (x0 (ix2 p k)) * x1 (ix2 q k)) + x2 (ix2 (0 : Fin 1) q) := by
  unfold k1_pay1
  show matmul (F := Ideal) dot_S10000x64_S64x64_S10000x64_1_0_0_1_n_n none (truncf .bf16 (tanh (shapeCast S10000x64 x0 shapeCasts_S10000x64_S10000x64)) bitsLt_bf16_f32)
        (transpose S64x64 [1, 0] (truncf .bf16 x1 bitsLt_bf16_f32) transposes_S64x64_p1_0_S64x64)
        (constant (F := Ideal) S10000x64 .f32 0x00000000#32) (ix2 p q)
      + broadcastTo S10000x64 (shapeCast S1x64 x2 shapeCasts_S1x64_S1x64) broadcasts_S1x64_S10000x64 (ix2 p q) = _
  refine congrArg₂ (· + ·) ?_ ?_
  · refine (Cert.Lib.plain_matmul_zero_apply 10000 64 64 none _ _ p q).trans ?_
    refine Finset.sum_congr rfl fun k _ => ?_
    refine congrArg₂ (· * ·) ?_ ?_
    · show Ideal.tanh (shapeCast S10000x64 x0 shapeCasts_S10000x64_S10000x64 (ix2 p k)) = _
      rw [shapeCast_self]
    · exact transpose_apply [1, 0] _ transposes_S64x64_p1_0_S64x64 (ix2 k q) (ix2 q k) (fun b => by
        match b with
        | ⟨0, _⟩ => rfl
        | ⟨1, _⟩ => rfl)
  · rw [shapeCast_self]
    exact broadcastTo_apply x2 broadcasts_S1x64_S10000x64 (ix2 p q) (ix2 (0 : Fin 1) q) (fun a => by
      match a with
      | ⟨0, _⟩ => rfl
      | ⟨1, _⟩ => rfl)

/-- The launch's index maps over its ten points: the feature blocks and the output blocks move together, block `t` at
    row block `t`; the weights and the bias row stay at their one block. -/
theorem blocks1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every row block is some point's. -/
theorem blocks1_onto : ∀ (q0 : Fin 10), ∃ t : Fin cfg1.N, win1_3.index t = ![q0.val, 0] :=
  (by decide +kernel : ∀ (q0 : Fin 10), ∃ t : Fin grid1.N, win1_3.index t = ![q0.val, 0])

/-- What point `t` writes back is block `t` of the dense layer of the entry arrays. -/
theorem written1 (c : Dev nD) (t : Fin cfg1.N) :
    (dat1 V c).flushed 3 t = ((cfg1.win 3).blk t).view.read (Elt Ideal)
      (Cert.Gcn.linRow (fun i => Ideal.tanh (V c main_v33 i)) (V c main_arg4) (V c main_v34)) := by
  show (cfg1.win 3).cut (grid1.coords t) ((dat1 V c).after 3 t) = _
  rw [after1_3]
  unfold out1_3
  rw [View.canon_unit_zero offsets_zero1]
  simp only [View.ld_unit_zero (S := S10000x64) offsets_zero1, View.ld_unit_zero (S := S64x64) offsets_zero1,
    View.ld_unit_zero (S := S1x64) offsets_zero1]
  obtain ⟨e0, e1, e2, e3, e4, e5, e6, e7⟩ := blocks1 t
  funext y
  obtain ⟨p, q, rfl⟩ : ∃ (p : Fin 10000) (q : Fin 64), y = ix2 p q := ⟨y 0, y 1, eq_ix2 y⟩
  refine (payload1_apply (iblk1 V c 0 t) (iblk1 V c 1 t) (iblk1 V c 2 t) p q).trans ?_
  show (∑ k : Fin 64, Ideal.tanh ((V c main_v33 : S100000x64.Idx → EReal) (((cfg1.win 0).blk t).view.emb (ix2 p k)))
        * (V c main_arg4 : S64x64.Idx → EReal) (((cfg1.win 1).blk t).view.emb (ix2 q k)))
      + (V c main_v34 : S1x64.Idx → EReal) (((cfg1.win 2).blk t).view.emb (ix2 (0 : Fin 1) q))
    = (∑ k : Fin 64, Ideal.tanh ((V c main_v33 : S100000x64.Idx → EReal) (ix2 ((((cfg1.win 3).blk t).view.emb (ix2 p q)) 0) k))
        * (V c main_arg4 : S64x64.Idx → EReal) (ix2 ((((cfg1.win 3).blk t).view.emb (ix2 p q)) 1) k))
      + (V c main_v34 : S1x64.Idx → EReal) (ix2 (0 : Fin 1) ((((cfg1.win 3).blk t).view.emb (ix2 p q)) 1))
  have hx : ∀ k : Fin 64, ((cfg1.win 0).blk t).view.emb (ix2 p k) = ix2 ((((cfg1.win 3).blk t).view.emb (ix2 p q)) 0) k := by
    intro k; funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have hw : ∀ k : Fin 64, ((cfg1.win 1).blk t).view.emb (ix2 q k) = ix2 ((((cfg1.win 3).blk t).view.emb (ix2 p q)) 1) k := by
    intro k; funext a; apply Fin.ext
    match a with
    | ⟨0, _⟩ => show win1_1.index t (0 : Fin 2) * 64 + 1 * q.val = win1_3.index t (1 : Fin 2) * 64 + 1 * q.val; omega
    | ⟨1, _⟩ => show win1_1.index t (1 : Fin 2) * 64 + 1 * k.val = k.val; omega
  have hb : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  rw [hb]
  refine congrArg₂ (· + ·) (Finset.sum_congr rfl fun k _ => ?_) rfl
  rw [hx k, hw k] <;> rfl

/-- An index of the array is in point `t`'s block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v35).slice (win1_3.rect t)).set ↔ _
  rw [View.set_slice_whole, Rect.mem_set_unit]
  exact Iff.rfl

/-- The ten blocks cover the array. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := blocks1_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE OUTPUT ARRAY of the launch: the dense layer of the arrays it is entered with. -/
theorem launch1_result (c : Dev nD) : (dat1 V c).arrAt 3 cfg1.N
    = Cert.Gcn.linRow (fun i => Ideal.tanh (V c main_v33 i)) (V c main_arg4) (V c main_v34) :=
  (dat1 V c).arrAt_eq_of_cover 3 _ (fun t _ => written1 V c t) (covered1)

end Cert.KernelIdeal.Val

end
-- ==== Proof.Launch2.lean ====
/-
  The third kernel launch, read as one function of the array it is entered with.

  The launch walks a [50000, 128] array in ten blocks of 5000 rows; at each block the body stores the hyperbolic tangent
  of what it loaded, entry by entry. Block `t` of the input and of the output are the same rows `[5000 t, 5000 (t+1))`,
  the ten blocks cover the array, and so the output array ends as `tanh` of the input array, index by index.
-/
import proofs.«177543_j43164421325168_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The hyperbolic tangent of an array, entry by entry. -/
def tanhFlat (x : S50000x128.Idx → EReal) : S50000x128.Idx → EReal := fun i => Ideal.tanh (x i)

/-- The body's stored value is the tangent of the loaded block, entry by entry. -/
theorem tanh_payload (x0 : Vec Ideal S5000x128 .f32) : k2_pay1 x0 = fun j => Ideal.tanh (x0 j) := by
  unfold k2_pay1
  rw [shapeCast_self]
  rfl

/-- The launch's index maps over its ten points: input and output blocks move together, block `t` at row block `t`. -/
theorem blocks2 : ∀ t : Fin cfg2.N, win2_0.index t (0 : Fin 2) = win2_1.index t (0 : Fin 2)
    ∧ win2_0.index t (1 : Fin 2) = win2_1.index t (1 : Fin 2)
    ∧ win2_1.index t (0 : Fin 2) ≤ 9 ∧ win2_1.index t (1 : Fin 2) = 0 :=
  (by decide +kernel : ∀ t : Fin grid2.N, _)

/-- Every row block is some point's. -/
theorem blocks2_onto : ∀ (q0 : Fin 10), ∃ t : Fin cfg2.N, win2_1.index t = ![q0.val, 0] :=
  (by decide +kernel : ∀ (q0 : Fin 10), ∃ t : Fin grid2.N, win2_1.index t = ![q0.val, 0])

/-- What point `t` writes back is block `t` of the tangent of the input array. -/
theorem written2 (c : Dev nD) (t : Fin cfg2.N) :
    (dat2 V c).flushed 1 t = ((cfg2.win 1).blk t).view.read (Elt Ideal) (tanhFlat (V c main_v52)) := by
  show (cfg2.win 1).cut (grid2.coords t) ((dat2 V c).after 1 t) = _
  rw [after2_1]
  unfold out2_1
  rw [View.canon_unit_zero offsets_zero]
  simp only [View.ld_unit_zero (S := S5000x128) offsets_zero]
  rw [tanh_payload]
  obtain ⟨e0, e1, e2, e3⟩ := blocks2 t
  funext j
  show Ideal.tanh (V c main_v52 (((cfg2.win 0).blk t).view.emb j)) = Ideal.tanh (V c main_v52 (((cfg2.win 1).blk t).view.emb j))
  have h0 : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 128 + 1 * (j 1).val = win2_1.index t (1 : Fin 2) * 128 + 1 * (j 1).val; omega
  rw [h0]

/-- An index of the array is in point `t`'s block iff each coordinate is in the block's range on its axis. -/
theorem mem_block2 (t : Fin cfg2.N) (i : S50000x128.Idx) :
    i ∈ ((cfg2.win 1).blk t).view.set ↔ ∀ a : Fin 2, win2_1.index t a * S5000x128.size a ≤ (i a).val ∧ (i a).val < win2_1.index t a * S5000x128.size a + S5000x128.size a := by
  show i ∈ ((View.whole main_v53).slice (win2_1.rect t)).set ↔ _
  rw [View.set_slice_whole, Rect.mem_set_unit]
  exact Iff.rfl

/-- The ten blocks cover the array. -/
theorem covered2 (i : S50000x128.Idx) :
    ∃ t : Fin cfg2.N, (cfg2.win 1).flush t = true ∧ i ∈ ((cfg2.win 1).blk t).view.set := by
  have hi0 : (i 0).val < 50000 := (i 0).isLt
  have hi1 : (i 1).val < 128 := (i 1).isLt
  obtain ⟨t, ht⟩ := blocks2_onto ⟨(i 0).val / 5000, by omega⟩
  have q0 : win2_1.index t (0 : Fin 2) = (i 0).val / 5000 := congrFun ht 0
  have q1 : win2_1.index t (1 : Fin 2) = 0 := congrFun ht 1
  refine ⟨t, flush2_1 t, ?_⟩
  rw [mem_block2]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 128 ≤ (i 1).val ∧ (i 1).val < win2_1.index t (1 : Fin 2) * 128 + 128; omega

/-- THE OUTPUT ARRAY of the third launch: the tangent of the array it is entered with. -/
theorem launch2_result (c : Dev nD) : (dat2 V c).arrAt 1 cfg2.N = tanhFlat (V c main_v52) :=
  (dat2 V c).arrAt_eq_of_cover 1 (tanhFlat (V c main_v52)) (fun t _ => written2 V c t) (covered2)

end Cert.KernelIdeal.Val

end
-- ==== Proof.KernelValue.lean ====
/-
  The kernel program's result as one function of its six arguments.

  Reading the run's boundaries from the last back to the first: the result is the third launch's output taken back to
  [100000, 64]; that output is the tangent of the flattened second aggregation; the second aggregation is of the second
  launch's output, the dense layer of the tangents of the first aggregation; the first aggregation is of the first
  launch's output, the dense layer of the node features. `dis`, `row` and `col` are computed before the first launch
  and nothing writes them afterwards.
-/
import proofs.«177543_j43164421325168_2_alg».proof.Proof.KernelHost
import proofs.«177543_j43164421325168_2_alg».proof.Proof.Launch0
import proofs.«177543_j43164421325168_2_alg».proof.Proof.Launch1
import proofs.«177543_j43164421325168_2_alg».proof.Proof.Launch2

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

/-- The first layer: the dense layer of the node features, aggregated. -/
def layer1 (x : FVec Ideal S100000x64 .f32) (ei : IVec S2x1600000 32) (w1 : FVec Ideal S64x64 .f32) (b1 : FVec Ideal S64 .f32) :
    FVec Ideal S100000x64 .f32 :=
  aggK (disK (rowIdx ei)) (rowIdx ei) (colIdx ei) (Cert.Gcn.linRow x w1 (shapeCast S1x64 b1 shapeCasts_S64_S1x64))

/-- The second layer: the dense layer of the tangents of the first layer, aggregated. -/
def layer2 (x : FVec Ideal S100000x64 .f32) (ei : IVec S2x1600000 32) (w1 : FVec Ideal S64x64 .f32) (b1 : FVec Ideal S64 .f32)
    (w2 : FVec Ideal S64x64 .f32) (b2 : FVec Ideal S64 .f32) : FVec Ideal S100000x64 .f32 :=
  aggK (disK (rowIdx ei)) (rowIdx ei) (colIdx ei)
    (Cert.Gcn.linRow (fun i => Ideal.tanh (layer1 x ei w1 b1 i)) w2 (shapeCast S1x64 b2 shapeCasts_S64_S1x64))

/-- The kernel program's result: the tangent of the second layer, taken through the [50000, 128] view and back. -/
def kernelValue (x : FVec Ideal S100000x64 .f32) (ei : IVec S2x1600000 32) (w1 : FVec Ideal S64x64 .f32) (b1 : FVec Ideal S64 .f32)
    (w2 : FVec Ideal S64x64 .f32) (b2 : FVec Ideal S64 .f32) : FVec Ideal S100000x64 .f32 :=
  shapeCast S100000x64 (tanhFlat (shapeCast S50000x128 (layer2 x ei w1 b1 w2 b2) shapeCasts_S100000x64_S50000x128))
    shapeCasts_S50000x128_S100000x64

variable (m : (ℓ : Loc nD τ sig) → Buf (Elt Ideal) ℓ) (ρ : Dev nD → PrngReg)

/-! ## What no launch and no later host operation writes -/

theorem W4_dis (c : Dev nD) : W4 m ρ c (Proc.devRef .tc main_v15) = disK (rowIdx (m ((c : Thread nD τ).loc main_arg1))) :=
  (W4_of_ne m ρ c main_v15 (by decide)).trans (W3_dis m ρ c)
theorem W4_row (c : Dev nD) : W4 m ρ c (Proc.devRef .tc main_v3) = rowIdx (m ((c : Thread nD τ).loc main_arg1)) :=
  (W4_of_ne m ρ c main_v3 (by decide)).trans (W3_row m ρ c)
theorem W4_col (c : Dev nD) : W4 m ρ c (Proc.devRef .tc main_v6) = colIdx (m ((c : Thread nD τ).loc main_arg1)) :=
  (W4_of_ne m ρ c main_v6 (by decide)).trans (W3_col m ρ c)
theorem W4_w2 (c : Dev nD) : W4 m ρ c (Proc.devRef .tc main_arg4) = m ((c : Thread nD τ).loc main_arg4) :=
  (W4_of_ne m ρ c main_arg4 (by decide)).trans (W3_w2 m ρ c)
theorem W4_b2 (c : Dev nD) : W4 m ρ c (Proc.devRef .tc main_arg5) = m ((c : Thread nD τ).loc main_arg5) :=
  (W4_of_ne m ρ c main_arg5 (by decide)).trans (W3_b2 m ρ c)
theorem W6_dis (c : Dev nD) : W6 m ρ c (Proc.devRef .tc main_v15) = disK (rowIdx (m ((c : Thread nD τ).loc main_arg1))) :=
  (W6_of_ne m ρ c main_v15 (by decide)).trans ((W5_dis m ρ c).trans (W4_dis m ρ c))
theorem W6_row (c : Dev nD) : W6 m ρ c (Proc.devRef .tc main_v3) = rowIdx (m ((c : Thread nD τ).loc main_arg1)) :=
  (W6_of_ne m ρ c main_v3 (by decide)).trans ((W5_row m ρ c).trans (W4_row m ρ c))
theorem W6_col (c : Dev nD) : W6 m ρ c (Proc.devRef .tc main_v6) = colIdx (m ((c : Thread nD τ).loc main_arg1)) :=
  (W6_of_ne m ρ c main_v6 (by decide)).trans ((W5_col m ρ c).trans (W4_col m ρ c))

/-! ## The launches' outputs -/

/-- After the first launch: the dense layer of the node features. -/
theorem first_dense (c : Dev nD) : W4 m ρ c (Proc.devRef .tc main_v17)
    = Cert.Gcn.linRow (m ((c : Thread nD τ).loc main_arg0)) (m ((c : Thread nD τ).loc main_arg2))
        (shapeCast S1x64 (m ((c : Thread nD τ).loc main_arg3)) shapeCasts_S64_S1x64) := by
  have h := (W4_arr m ρ c 3).trans (launch0_result (V3 m ρ) c)
  have h0 : V3 m ρ c main_arg0 = m ((c : Thread nD τ).loc main_arg0) := W3_x m ρ c
  have h2 : V3 m ρ c main_arg2 = m ((c : Thread nD τ).loc main_arg2) := W3_w m ρ c
  have h3 : V3 m ρ c main_v16 = shapeCast S1x64 (m ((c : Thread nD τ).loc main_arg3)) shapeCasts_S64_S1x64 := W3_bias m ρ c
  rw [h0, h2, h3] at h
  exact h

/-- Before the second launch: the first layer. -/
theorem first_layer (c : Dev nD) : W5 m ρ c (Proc.devRef .tc main_v33)
    = layer1 (m ((c : Thread nD τ).loc main_arg0)) (m ((c : Thread nD τ).loc main_arg1)) (m ((c : Thread nD τ).loc main_arg2))
        (m ((c : Thread nD τ).loc main_arg3)) := by
  rw [W5_agg, W4_dis, W4_row, W4_col, first_dense]
  rfl

/-- After the second launch: the dense layer of the tangents of the first layer. -/
theorem second_dense (c : Dev nD) : W6 m ρ c (Proc.devRef .tc main_v35)
    = Cert.Gcn.linRow (fun i => Ideal.tanh (layer1 (m ((c : Thread nD τ).loc main_arg0)) (m ((c : Thread nD τ).loc main_arg1))
          (m ((c : Thread nD τ).loc main_arg2)) (m ((c : Thread nD τ).loc main_arg3)) i))
        (m ((c : Thread nD τ).loc main_arg4)) (shapeCast S1x64 (m ((c : Thread nD τ).loc main_arg5)) shapeCasts_S64_S1x64) := by
  have h := (W6_arr m ρ c 3).trans (launch1_result (V5 m ρ) c)
  have h0 : V5 m ρ c main_v33 = layer1 (m ((c : Thread nD τ).loc main_arg0)) (m ((c : Thread nD τ).loc main_arg1))
      (m ((c : Thread nD τ).loc main_arg2)) (m ((c : Thread nD τ).loc main_arg3)) := first_layer m ρ c
  have h2 : V5 m ρ c main_arg4 = m ((c : Thread nD τ).loc main_arg4) := (W5_w m ρ c).trans (W4_w2 m ρ c)
  have h3 : V5 m ρ c main_v34 = shapeCast S1x64 (m ((c : Thread nD τ).loc main_arg5)) shapeCasts_S64_S1x64 :=
    (W5_bias m ρ c).trans (by rw [W4_b2])
  rw [h0, h2, h3] at h
  exact h

/-- Before the third launch: the second layer, flattened. -/
theorem second_layer (c : Dev nD) : W7 m ρ c (Proc.devRef .tc main_v52)
    = shapeCast S50000x128 (layer2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) shapeCasts_S100000x64_S50000x128 := by
  rw [W7_agg, W6_dis, W6_row, W6_col, second_dense]
  rfl

/-- THE RESULT BUFFER at the end of the run. -/
theorem kernel_value (c : Dev nD) : W9 m ρ c (Proc.devRef .tc main_v54)
    = kernelValue (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have h := (W8_arr m ρ c 1).trans (launch2_result (V7 m ρ) c)
  have h0 : V7 m ρ c main_v52 = shapeCast S50000x128 (layer2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) shapeCasts_S100000x64_S50000x128 := second_layer m ρ c
  rw [h0] at h
  rw [W9_out]
  unfold kernelValue
  exact congrArg (fun z => shapeCast S100000x64 z shapeCasts_S50000x128_S100000x64) h

end Cert.KernelIdeal.Val

end
-- ==== Proof.RefValue.lean ====
/-
  The reference program's value, as whole-array functions.

  The reference is a straight line of host operations. Its result is the hyperbolic tangent of the second layer's
  aggregation; each layer is a dense layer `x · Wᵀ + b` (the weights transposed on the host, a plain product, the bias
  spread over the rows) followed by the aggregation that scales every gathered message by its own
  `dis[row e] · dis[col e]` and adds the messages up at `col e`, with `dis = deg ^ (-1/2)` unguarded.
-/
import proofs.«177543_j43164421325168_2_alg».proof.Proof.Gen.ReferenceIdeal.Run
import Idealize.ShloMosaic.Lib.Pipeline.Value
import Idealize.ShloMosaic.Lib.ValueIdx
import Idealize.ShloMosaic.PureOps.Ideal.Laws
import proofs.«177543_j43164421325168_2_alg».proof.Proof.LibPlainDot
import proofs.«177543_j43164421325168_2_alg».proof.Proof.LinSpec

set_option maxRecDepth 16384

noncomputable section

namespace Cert.ReferenceIdeal.RefVal

open Cert.ReferenceIdeal Cert.ReferenceIdeal.Gen
open Idealize.ShloMosaic Idealize.ShloMosaic.TcCoe Idealize.ShloMosaic.ValueIdx
open Idealize.SL.Sem

/-- The edges' source nodes: row 0 of the edge index, then the self loops. -/
def rowIdx (ei : IVec S2x1600000 32) : IVec S1700000 32 :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The edges' target nodes: row 1 of the edge index, then the self loops. -/
def colIdx (ei : IVec S2x1600000 32) : IVec S1700000 32 :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- The degree: ones added up at the edges' source nodes. -/
def degR (R : IVec S1700000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 R)
    (broadcastInDim S1700000 ![] bcast_S_S1700000 (constant S_ .f32 0x3F800000#32))

/-- The inverse square root of the degree. -/
def disR (R : IVec S1700000 32) : FVec Ideal S100000 .f32 :=
  Host.powf (degR R) (broadcastInDim S100000 ![] bcast_S_S100000 (constant S_ .f32 0xBF000000#32))

/-- An index list wrapped (a negative entry counted from the end) and made a column: what a gather is given. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The aggregation: every gathered row scaled by `dis[row e] · dis[col e]`, added up at `col e`. -/
def aggR (dis : FVec Ideal S100000 .f32) (R C : IVec S1700000 32) (h : FVec Ideal S100000x64 .f32) :
    FVec Ideal S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 C)
    (mulf (broadcastInDim S1700000x64 ![0, 1] bcast_S1700000x1_S1700000x64_0_1 (broadcastInDim S1700000x1 ![0] bcast_S1700000_S1700000x1_0
        (mulf (Host.gather gather_S100000_S1700000x1_S1700000_n_0_n_n_0_1_1 dis (wrapCol R))
          (Host.gather gather_S100000_S1700000x1_S1700000_n_0_n_n_0_1_1 dis (wrapCol C)))))
      (Host.gather gather_S100000x64_S1700000x1_S1700000x64_1_0_n_n_0_1_164 h (wrapCol R)))

/-- The dense layer on the host: the product with the transposed weights plus the bias spread over the rows. -/
def denseR (x : FVec Ideal S100000x64 .f32) (w : FVec Ideal S64x64 .f32) (b : FVec Ideal S64 .f32) : FVec Ideal S100000x64 .f32 :=
  addf (Host.dotGeneral dot_S100000x64_S64x64_S100000x64_1_0_0_1_n_n none x (transpose S64x64 [1, 0] w transposes_S64x64_S64x64_1_0))
    (broadcastInDim S100000x64 ![0, 1] bcast_S1x64_S100000x64_0_1 (broadcastInDim S1x64 ![1] bcast_S64_S1x64_1 b))

/-- The reference's result as a function of the six arguments. -/
def refValue (x : FVec Ideal S100000x64 .f32) (ei : IVec S2x1600000 32) (w1 : FVec Ideal S64x64 .f32) (b1 : FVec Ideal S64 .f32)
    (w2 : FVec Ideal S64x64 .f32) (b2 : FVec Ideal S64 .f32) : FVec Ideal S100000x64 .f32 :=
  Host.tanh (aggR (disR (rowIdx ei)) (rowIdx ei) (colIdx ei)
    (denseR (Host.tanh (aggR (disR (rowIdx ei)) (rowIdx ei) (colIdx ei) (denseR x w1 b1))) w2 b2))

set_option maxRecDepth 65536 in
/-- The generated run's result term is that function of the launch memory's arguments. -/
theorem run_term (m : (ℓ : Loc nD τ sig) → Buf (Elt Ideal) ℓ) (c : Dev nD) :
    Value.res_main_v86 m c = refValue (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_main_v86 refValue aggR denseR disR degR wrapCol rowIdx colIdx
  rfl

/-- The host's dense layer is `x · Wᵀ + b`, index by index. -/
theorem denseR_eq (x : FVec Ideal S100000x64 .f32) (w : FVec Ideal S64x64 .f32) (b : FVec Ideal S64 .f32) :
    denseR x w b = Cert.Gcn.lin x w b := by
  funext i
  obtain ⟨p, q, rfl⟩ : ∃ (p : Fin 100000) (q : Fin 64), i = ix2 p q := ⟨i 0, i 1, eq_ix2 i⟩
  unfold denseR Cert.Gcn.lin
  rw [addf_apply]
  refine congrArg₂ (· + ·) ?_ ?_
  · refine (Cert.Lib.plain_dotGeneral_apply 100000 64 64 none x _ p q).trans ?_
    refine Finset.sum_congr rfl fun k _ => ?_
    refine congrArg₂ (· * ·) rfl ?_
    exact transpose_apply [1, 0] w transposes_S64x64_S64x64_1_0 (ix2 k q) (ix2 q k) (fun b => by
      match b with
      | ⟨0, _⟩ => rfl
      | ⟨1, _⟩ => rfl)
  · rw [broadcastInDim_apply ![0, 1] bcast_S1x64_S100000x64_0_1 _ (ix2 p q) (ix2 (0 : Fin 1) q) (fun a => by
        match a with
        | ⟨0, _⟩ => rfl
        | ⟨1, _⟩ => rfl),
      broadcastInDim_apply ![1] bcast_S64_S1x64_1 _ (ix2 (0 : Fin 1) q) (ix1 q) (fun a => by
        match a with
        | ⟨0, _⟩ => rfl)]

end Cert.ReferenceIdeal.RefVal

end
-- ==== Proof.LibRowScatter.lean ====
/-
  The scatter of WHOLE ROWS into a matrix: where an update element lands.

  For an operand `[N, C]`, an integer column `idx : [R, 1]` and updates `[R, C]`, the scatter with update window
  axes `[1]`, inserted window axes `[0]`, scatter-dims-to-operand-dims map `[0]` and index vector axis `1` sends
  the update element `(e, c)` to the operand element `(idx[e, 0], c)`: the row is the start index, read as a SIGNED
  integer and NOT clamped, the column is the update's own column. When the row is outside `[0, N)` the update is
  dropped. So `resultIdx? (e, c) idx = some i` holds exactly when `idx[e, 0]`, read signed, is `i`'s row and
  `c` is `i`'s column. The statements are general in the extents `N`, `R`, `C` and in the index width `w`, and are
  meant to be reused: the unprimed ones for the dimension numbers written out (`rowScatterDims`), the primed ones for
  ANY record of dimension numbers with those four fields.
-/
import Idealize.ShloMosaic.PureOps.Ideal
import Idealize.ShloMosaic.Lib.ValueIdx

namespace Cert.Lib

open Idealize.ShloMosaic Idealize.ShloMosaic.ValueIdx

/-- The dimension numbers of a scatter of whole rows: operand `[N, C]`, scatter indices `[R, 1]` (one row number per
    update row, on the index vector's axis `1`), updates `[R, C]`; operand axis `0` is the inserted window axis and
    the one the start index addresses, the updates' axis `1` is the window axis and goes to operand axis `1`. Their
    conditions `wf` are decidable on literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On operand axis `0` (in the scatter-dims-to-operand-dims map) the window of update `(e, c)` starts at
    `idx[e, 0]`, read signed. -/
theorem rowScatter_start_zero {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N R C wf).start (ix2 e c) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis `1` (not in the map) the window starts at `0`. -/
theorem rowScatter_start_one {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N R C wf).start (ix2 e c) idx 1 = 0 := by
  unfold ScatterDims.start
  rw [dif_neg (fun h => Nat.one_ne_zero (congrArg Fin.val (List.mem_singleton.mp h)))]

/-- An operand axis is kept (receives a window axis of the updates) exactly when it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- On operand axis `0` (an inserted window axis) the window coordinate is `0`. -/
theorem rowScatter_window_zero {N R C : Nat}
    (wf : ScatterDims.WF ⟨2, ![N, C]⟩ ⟨2, ![R, 1]⟩ ⟨2, ![R, C]⟩ [1] [0] [0] 1) (e : Fin R) (c : Fin C) :
    (rowScatterDims N R C wf).window (ix2 e c) 0 = 0 := by
  unfold ScatterDims.window
  rw [dif_neg (fun h => (scatter_mem_sKept _ _).mp h (List.mem_singleton.mpr rfl))]

/-- On operand axis `1` (the kept axis) the window coordinate is the update's column. -/
theorem rowScatter_window_one {N R C : Nat}
    (wf : ScatterDims.WF ⟨2, ![N, C]⟩ ⟨2, ![R, 1]⟩ ⟨2, ![R, C]⟩ [1] [0] [0] 1) (e : Fin R) (c : Fin C) :
    (rowScatterDims N R C wf).window (ix2 e c) 1 = c.val := by
  unfold ScatterDims.window
  rw [dif_pos ((scatter_mem_sKept _ _).mpr
    (fun h => Nat.one_ne_zero (congrArg Fin.val (List.mem_singleton.mp h))))]
  rfl

/-- WHERE AN UPDATE LANDS: if update `(e, c)` lands on the operand element `i`, then `idx[e, 0]`, read signed, is
    `i`'s row (so it lies in `[0, N)`) and `c` is `i`'s column. -/
theorem rowScatter_resultIdx_some {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N R C wf).resultIdx? (ix2 e c) idx = some i) :
    (idx (ix2 e (0 : Fin 1))).toInt = ((i 0).val : Int) ∧ (i 1).val = c.val := by
  unfold ScatterDims.resultIdx? at h
  split at h
  · rename_i hr
    have hi := Option.some.inj h
    subst hi
    have h0 := hr 0
    rw [rowScatter_start_zero, rowScatter_window_zero] at h0
    refine ⟨?_, ?_⟩
    · show _ = (((((rowScatterDims N R C wf).start (ix2 e c) idx 0
          + ((rowScatterDims N R C wf).window (ix2 e c) 0 : Nat)).toNat : Nat)) : Int)
      rw [rowScatter_start_zero, rowScatter_window_zero]
      omega
    · show ((rowScatterDims N R C wf).start (ix2 e c) idx 1
          + ((rowScatterDims N R C wf).window (ix2 e c) 1 : Nat)).toNat = c.val
      rw [rowScatter_start_one, rowScatter_window_one]
      omega
  · exact absurd h (by simp)

/-- The converse: when `idx[e, 0]`, read signed, is the row `n` of the operand, update `(e, c)` lands on `(n, c)`. -/
theorem rowScatter_resultIdx_of_eq {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (n : Fin N)
    (h : (idx (ix2 e (0 : Fin 1))).toInt = (n.val : Int)) :
    (rowScatterDims N R C wf).resultIdx? (ix2 e c) idx = some (ix2 n c) := by
  have hr : ∀ a, 0 ≤ (rowScatterDims N R C wf).start (ix2 e c) idx a + (rowScatterDims N R C wf).window (ix2 e c) a
      ∧ (rowScatterDims N R C wf).start (ix2 e c) idx a + (rowScatterDims N R C wf).window (ix2 e c) a
        < (⟨2, ![N, C]⟩ : Shape).size a := by
    intro a
    match a with
    | ⟨0, _⟩ =>
      show 0 ≤ (rowScatterDims N R C wf).start (ix2 e c) idx 0 + ((rowScatterDims N R C wf).window (ix2 e c) 0 : Nat)
        ∧ (rowScatterDims N R C wf).start (ix2 e c) idx 0 + ((rowScatterDims N R C wf).window (ix2 e c) 0 : Nat) < (N : Int)
      rw [rowScatter_start_zero, rowScatter_window_zero, h]
      have := n.isLt
      omega
    | ⟨1, _⟩ =>
      show 0 ≤ (rowScatterDims N R C wf).start (ix2 e c) idx 1 + ((rowScatterDims N R C wf).window (ix2 e c) 1 : Nat)
        ∧ (rowScatterDims N R C wf).start (ix2 e c) idx 1 + ((rowScatterDims N R C wf).window (ix2 e c) 1 : Nat) < (C : Int)
      rw [rowScatter_start_one, rowScatter_window_one]
      have := c.isLt
      omega
  unfold ScatterDims.resultIdx?
  rw [dif_pos hr]
  refine congrArg some ?_
  funext a
  refine Fin.ext ?_
  match a with
  | ⟨0, _⟩ =>
    show ((rowScatterDims N R C wf).start (ix2 e c) idx 0
        + ((rowScatterDims N R C wf).window (ix2 e c) 0 : Nat)).toNat = n.val
    rw [rowScatter_start_zero, rowScatter_window_zero, h]
    omega
  | ⟨1, _⟩ =>
    show ((rowScatterDims N R C wf).start (ix2 e c) idx 1
        + ((rowScatterDims N R C wf).window (ix2 e c) 1 : Nat)).toNat = c.val
    rw [rowScatter_start_one, rowScatter_window_one]
    omega

/-- `rowScatter_resultIdx_some` for ANY record of scatter dimension numbers over those three shapes whose fields are the
    row scatter's (for a record given by its literal fields the four equations hold by `rfl`). -/
theorem rowScatter_resultIdx_some' {N R C w : Nat}
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (e : Fin R) (c : Fin C) (i : (⟨2, ![N, C]⟩ : Shape).Idx)
    (h : d.resultIdx? (ix2 e c) idx = some i) :
    (idx (ix2 e (0 : Fin 1))).toInt = ((i 0).val : Int) ∧ (i 1).val = c.val := by
  obtain ⟨uw, iw, sd, iv, wf⟩ := d
  simp only at h1 h2 h3 h4
  subst h1 h2 h3 h4
  exact rowScatter_resultIdx_some wf idx e c i h

/-- `rowScatter_resultIdx_of_eq` for ANY record of scatter dimension numbers with the row scatter's four fields. -/
theorem rowScatter_resultIdx_of_eq' {N R C w : Nat}
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (e : Fin R) (c : Fin C) (n : Fin N)
    (h : (idx (ix2 e (0 : Fin 1))).toInt = (n.val : Int)) :
    d.resultIdx? (ix2 e c) idx = some (ix2 n c) := by
  obtain ⟨uw, iw, sd, iv, wf⟩ := d
  simp only at h1 h2 h3 h4
  subst h1 h2 h3 h4
  exact rowScatter_resultIdx_of_eq wf idx e c n h

end Cert.Lib
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.LibTakeGather.lean ====
/-
  The gather of SINGLE ENTRIES of a vector, read at an index.

  For a vector `x : [N]` and an integer column `idx : [R, 1]`, the gather with no offset axis, collapsed slice axes
  `[0]`, start index map `[0]`, index vector axis `1` and slice sizes `[1]` is the vector `[R]` whose element `e` is
  `x` at entry `idx[e, 0]` — read as a signed integer and clamped into `[0, N − 1]`, as a gather clamps every start
  index so that the slice fits. The statement is general in the extents `N`, `R`, in the index width `w` and in the
  element type, and is meant to be reused: `takeGather_apply` for the dimension numbers written out
  (`takeGatherDims`), `takeGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of single entries of a vector: operand `[N]`, start indices `[R, 1]` (one entry
    number per result entry, on the index vector's axis `1`), result `[R]`; the operand's one axis is collapsed and is
    the one the start index addresses (slice sizes `[1]`), and there is no offset axis. Their conditions `wf` are
    decidable on literal shapes. -/
abbrev takeGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at entry `idx[e, 0]`, read signed and clamped into `[0, N − 1]`. On the
    operand's one axis (collapsed, in the start index map) the operand index is the clamped start, with no batching and
    no offset part. -/
theorem takeGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (takeGatherDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (takeGatherDims N R wf).start (ix1 e) idx 0 + (takeGatherDims N R wf).batchCoord (ix1 e) 0
      + (takeGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGatherDims N R wf).startIndexMap from List.mem_singleton.mpr rfl)]
  have hsi : (takeGatherDims N R wf).siIdx (ix1 e) ⟨List.idxOf (0 : Fin 1) (takeGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for ANY record of gather dimension numbers over those three shapes whose fields are the entry gather's (for
    a record given by its literal fields the seven equations hold by `rfl`). -/
theorem takeGather_apply' {α : Type} {N R w : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact takeGather_apply hN wf x idx e

end Cert.Lib
-- ==== Proof.LibEntryScatter.lean ====
/-
  The scatter of SINGLE ENTRIES into a vector: where an update lands.

  For an operand `[N]`, an integer column `idx : [R, 1]` and updates `[R]`, the scatter with no update window
  axis, inserted window axes `[0]`, scatter-dims-to-operand-dims map `[0]` and index vector axis `1` sends the
  update element `e` to the operand element `idx[e, 0]`: the start index is read as a SIGNED integer and is NOT
  clamped, and when it is outside `[0, N)` the update is dropped. So `resultIdx? e idx = some i` holds exactly when
  `idx[e, 0]`, read signed, is `i`. With a float `add` body this is `jax.ops.segment_sum` of a vector (a degree
  count when the updates are ones). The statements are general in the extents `N`, `R` and in the index width
  `w`: the unprimed ones for the dimension numbers written out (`entryScatterDims`), the primed ones for ANY record
  of dimension numbers with those four fields.
-/
import Idealize.ShloMosaic.PureOps.Ideal
import Idealize.ShloMosaic.Lib.ValueIdx

namespace Cert.Lib

open Idealize.ShloMosaic Idealize.ShloMosaic.ValueIdx

/-- The dimension numbers of a scatter of single entries: operand `[N]`, scatter indices `[R, 1]` (one entry number
    per update, on the index vector's axis `1`), updates `[R]`; the operand's one axis is the inserted window axis
    and the one the start index addresses, and the updates have no window axis. -/
abbrev entryScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update `e` starts at `idx[e, 0]`, read signed. -/
theorem entryScatter_start {N R w : Nat}
    (wf : ScatterDims.WF ⟨1, ![N]⟩ ⟨2, ![R, 1]⟩ ⟨1, ![R]⟩ [] [0] [0] 1)
    (idx : IVec ⟨2, ![R, 1]⟩ w) (e : Fin R) :
    (entryScatterDims N R wf).start (ix1 e) idx 0 = (idx (ix2 e (0 : Fin 1))).toInt := by
  unfold ScatterDims.start
  rw [dif_pos (show (0 : Fin 1) ∈ (entryScatterDims N R wf).scatterDimsToOperandDims from List.mem_singleton.mpr rfl)]
  have hsi : (entryScatterDims N R wf).siIdx (ix1 e)
      ⟨List.idxOf (0 : Fin 1) (entryScatterDims N R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- An operand axis receives a window axis of the updates exactly when it is not an inserted window axis. -/
theorem entryScatter_mem_sKept {s si u : Shape} (d : ScatterDims s si u) (a : Fin s.rank) :
    a ∈ d.sKept ↔ a ∉ d.insertedWindowDims := by
  simp [ScatterDims.sKept, Shape.kept, List.mem_filter, List.mem_finRange]

/-- On the operand's one axis (an inserted window axis) the window coordinate is `0`. -/
theorem entryScatter_window {N R : Nat}
    (wf : ScatterDims.WF ⟨1, ![N]⟩ ⟨2, ![R, 1]⟩ ⟨1, ![R]⟩ [] [0] [0] 1) (e : Fin R) :
    (entryScatterDims N R wf).window (ix1 e) 0 = 0 := by
  unfold ScatterDims.window
  rw [dif_neg (fun h => (entryScatter_mem_sKept _ _).mp h (List.mem_singleton.mpr rfl))]

/-- WHERE AN UPDATE LANDS: if update `e` lands on the operand element `i`, then `idx[e, 0]`, read signed, is `i`. -/
theorem entryScatter_resultIdx_some {N R w : Nat}
    (wf : ScatterDims.WF ⟨1, ![N]⟩ ⟨2, ![R, 1]⟩ ⟨1, ![R]⟩ [] [0] [0] 1)
    (idx : IVec ⟨2, ![R, 1]⟩ w) (e : Fin R) (i : (⟨1, ![N]⟩ : Shape).Idx)
    (h : (entryScatterDims N R wf).resultIdx? (ix1 e) idx = some i) :
    (idx (ix2 e (0 : Fin 1))).toInt = ((i 0).val : Int) := by
  unfold ScatterDims.resultIdx? at h
  split at h
  · rename_i hr
    have hi := Option.some.inj h
    subst hi
    have h0 := hr 0
    rw [entryScatter_start, entryScatter_window] at h0
    show _ = (((((entryScatterDims N R wf).start (ix1 e) idx 0
        + ((entryScatterDims N R wf).window (ix1 e) 0 : Nat)).toNat : Nat)) : Int)
    rw [entryScatter_start, entryScatter_window]
    omega
  · exact absurd h (by simp)

/-- The converse: when `idx[e, 0]`, read signed, is the entry `n` of the operand, update `e` lands on `n`. -/
theorem entryScatter_resultIdx_of_eq {N R w : Nat}
    (wf : ScatterDims.WF ⟨1, ![N]⟩ ⟨2, ![R, 1]⟩ ⟨1, ![R]⟩ [] [0] [0] 1)
    (idx : IVec ⟨2, ![R, 1]⟩ w) (e : Fin R) (n : Fin N)
    (h : (idx (ix2 e (0 : Fin 1))).toInt = (n.val : Int)) :
    (entryScatterDims N R wf).resultIdx? (ix1 e) idx = some (ix1 n) := by
  have hr : ∀ a, 0 ≤ (entryScatterDims N R wf).start (ix1 e) idx a + (entryScatterDims N R wf).window (ix1 e) a
      ∧ (entryScatterDims N R wf).start (ix1 e) idx a + (entryScatterDims N R wf).window (ix1 e) a
        < (⟨1, ![N]⟩ : Shape).size a := by
    intro a
    match a with
    | ⟨0, _⟩ =>
      show 0 ≤ (entryScatterDims N R wf).start (ix1 e) idx 0 + ((entryScatterDims N R wf).window (ix1 e) 0 : Nat)
        ∧ (entryScatterDims N R wf).start (ix1 e) idx 0 + ((entryScatterDims N R wf).window (ix1 e) 0 : Nat) < (N : Int)
      rw [entryScatter_start, entryScatter_window, h]
      have := n.isLt
      omega
  unfold ScatterDims.resultIdx?
  rw [dif_pos hr]
  refine congrArg some ?_
  funext a
  refine Fin.ext ?_
  match a with
  | ⟨0, _⟩ =>
    show ((entryScatterDims N R wf).start (ix1 e) idx 0
        + ((entryScatterDims N R wf).window (ix1 e) 0 : Nat)).toNat = n.val
    rw [entryScatter_start, entryScatter_window, h]
    omega

/-- `entryScatter_resultIdx_some` for ANY record of scatter dimension numbers over those three shapes whose fields are
    the entry scatter's (for a record given by its literal fields the four equations hold by `rfl`). -/
theorem entryScatter_resultIdx_some' {N R w : Nat}
    (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (idx : IVec ⟨2, ![R, 1]⟩ w) (e : Fin R) (i : (⟨1, ![N]⟩ : Shape).Idx)
    (h : d.resultIdx? (ix1 e) idx = some i) :
    (idx (ix2 e (0 : Fin 1))).toInt = ((i 0).val : Int) := by
  obtain ⟨uw, iw, sd, iv, wf⟩ := d
  simp only at h1 h2 h3 h4
  subst h1 h2 h3 h4
  exact entryScatter_resultIdx_some wf idx e i h

/-- `entryScatter_resultIdx_of_eq` for ANY record of scatter dimension numbers with the entry scatter's four fields. -/
theorem entryScatter_resultIdx_of_eq' {N R w : Nat}
    (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (idx : IVec ⟨2, ![R, 1]⟩ w) (e : Fin R) (n : Fin N)
    (h : (idx (ix2 e (0 : Fin 1))).toInt = (n.val : Int)) :
    d.resultIdx? (ix1 e) idx = some (ix1 n) := by
  obtain ⟨uw, iw, sd, iv, wf⟩ := d
  simp only at h1 h2 h3 h4
  subst h1 h2 h3 h4
  exact entryScatter_resultIdx_of_eq wf idx e n h

end Cert.Lib
-- ==== Proof.LibNonnegDistrib.lean ====
/-
  Multiplication by a NON-NEGATIVE REAL distributes over addition and over finite sums on the extended reals.

  On `EReal` the product does not distribute over the sum in general (`⊤ + ⊥ = ⊥`, and a negative factor turns the
  summands around), but a factor `x` that is a coerced real with `0 ≤ x` does: it is neither `⊤` nor `⊥`, it keeps
  the sign of every summand, and `0 * _ = 0`. Nothing is assumed of the summands: they may be `⊤` or `⊥`.
-/
import Mathlib.Data.EReal.Operations
import Mathlib.Algebra.BigOperators.Group.Finset.Basic

namespace Cert.Lib

/-- `x * (a + b) = x * a + x * b` for a real `x ≥ 0` and any extended reals `a`, `b`. -/
theorem coe_nonneg_mul_add {x : ℝ} (hx : 0 ≤ x) (a b : EReal) :
    (x : EReal) * (a + b) = (x : EReal) * a + (x : EReal) * b :=
  EReal.left_distrib_of_nonneg_of_ne_top (EReal.coe_nonneg.mpr hx) (EReal.coe_ne_top x) a b

/-- `x * ∑ f = ∑ x * f` over a finite set, for a real `x ≥ 0` and any extended reals `f j`. -/
theorem coe_nonneg_mul_sum {ι : Type*} {x : ℝ} (hx : 0 ≤ x) (s : Finset ι) (f : ι → EReal) :
    (x : EReal) * ∑ j ∈ s, f j = ∑ j ∈ s, (x : EReal) * f j := by
  classical
  induction s using Finset.induction_on with
  | empty => simp
  | insert a s ha ih => rw [Finset.sum_insert ha, Finset.sum_insert ha, coe_nonneg_mul_add hx, ih]

end Cert.Lib
-- ==== Proof.GcnAlgebra.lean ====
/-
  The normalised graph aggregation of a GCN layer, on the extended reals, and its two spellings.

  A layer aggregates node features `h : [N, C]` along `E` edges `(row e, col e)` with the symmetric normalisation
  `dis[row e] · dis[col e]`, `dis = deg ^ (-1/2)`:

      out[c, j] = ∑ over the edges e with col e = c of  (dis[row e] · dis[col e]) · h[row e, j].

  One program scales every message by its own `dis[row e] · dis[col e]` and adds the messages up; the other scales
  the node features by `dis` once, adds the gathered rows up, and scales the sum by `dis[c]` — the common factor
  `dis[col e] = dis[c]` taken out of the sum. Every summand of the target `c` has `col e = c`, and a product with a
  NON-NEGATIVE REAL distributes over a finite sum of extended reals whatever the summands are, so the two agree as soon
  as every `dis[c]` is a non-negative real. An edge whose `col e` is outside `[0, N)` is dropped by both (the scatter
  reads its index unclamped), and for an edge that is kept the gather's clamped, wrapped index of `col e` is `col e`
  itself: that is the hypothesis `hC`.

  The degree is a scatter-add of ones, a count; with a self loop on every node the count is at least one, so
  `deg ^ (-1/2)` is a non-negative real, and a guard `deg > 0 ? deg ^ (-1/2) : 0` changes nothing.
-/
import Idealize.ShloMosaic.PureOps.Ideal
import Idealize.ShloMosaic.PureOps.Ideal.Laws
import Idealize.ShloMosaic.Lib.ValueIdx
import Idealize.ShloMosaic.Lib.Pipeline.Value
import proofs.«177543_j43164421325168_2_alg».proof.Proof.LibRowScatter
import proofs.«177543_j43164421325168_2_alg».proof.Proof.LibRowGather
import proofs.«177543_j43164421325168_2_alg».proof.Proof.LibTakeGather
import proofs.«177543_j43164421325168_2_alg».proof.Proof.LibEntryScatter
import proofs.«177543_j43164421325168_2_alg».proof.Proof.LibNonnegDistrib

noncomputable section

namespace Cert.Gcn

open Idealize.ShloMosaic Idealize.ShloMosaic.ValueIdx Cert.Lib

/-! ## The shapes -/

abbrev S0 : Shape := ⟨0, ![]⟩
abbrev SN : Shape := ⟨1, ![100000]⟩
abbrev SN1 : Shape := ⟨2, ![100000, 1]⟩
abbrev SNC : Shape := ⟨2, ![100000, 64]⟩
abbrev SE : Shape := ⟨1, ![1700000]⟩
abbrev SE1 : Shape := ⟨2, ![1700000, 1]⟩
abbrev SEC : Shape := ⟨2, ![1700000, 64]⟩

/-- A gather's start index: the 32-bit word read signed and clamped into `[0, N - 1]`. -/
def clamp (v : BitVec 32) : Fin 100000 := ⟨min v.toInt.toNat (100000 - 1), by omega⟩

/-! ## Host operations read at an index -/

/-- The host's accumulating scatter at an element: the operand's element plus the updates that land on it. -/
theorem scatterAdd_apply {s si su : Shape} (d : ScatterDims s si su) {w : Nat} (x : FVec Ideal s .f32) (idx : IVec si w)
    (upd : FVec Ideal su .f32) (i : s.Idx) :
    Host.scatterAdd d x idx upd i = x i + ∑ j ∈ Finset.univ.filter (fun j => d.resultIdx? j idx = some i), upd j := rfl

/-- A per-node value spread over the node's row, read at `(c, j)`. -/
theorem rows_apply {α : Type} (hb1 : SN.BroadcastsInDim SN1 ![0]) (hb2 : SN1.BroadcastsInDim SNC ![0, 1])
    (d : SN.Idx → α) (c : Fin 100000) (j : Fin 64) :
    broadcastInDim SNC ![0, 1] hb2 (broadcastInDim SN1 ![0] hb1 d) (ix2 c j) = d (ix1 c) := by
  rw [broadcastInDim_apply ![0, 1] hb2 _ (ix2 c j) (ix2 c (0 : Fin 1)) (fun a => by
      match a with
      | ⟨0, _⟩ => rfl
      | ⟨1, _⟩ => rfl),
    broadcastInDim_apply ![0] hb1 _ (ix2 c (0 : Fin 1)) (ix1 c) (fun a => by
      match a with
      | ⟨0, _⟩ => rfl)]

/-- A per-edge value spread over the edge's row, read at `(e, j)`. -/
theorem edges_apply {α : Type} (hb3 : SE.BroadcastsInDim SE1 ![0]) (hb4 : SE1.BroadcastsInDim SEC ![0, 1])
    (d : SE.Idx → α) (e : Fin 1700000) (j : Fin 64) :
    broadcastInDim SEC ![0, 1] hb4 (broadcastInDim SE1 ![0] hb3 d) (ix2 e j) = d (ix1 e) := by
  rw [broadcastInDim_apply ![0, 1] hb4 _ (ix2 e j) (ix2 e (0 : Fin 1)) (fun a => by
      match a with
      | ⟨0, _⟩ => rfl
      | ⟨1, _⟩ => rfl),
    broadcastInDim_apply ![0] hb3 _ (ix2 e (0 : Fin 1)) (ix1 e) (fun a => by
      match a with
      | ⟨0, _⟩ => rfl)]

/-- A per-edge index made a column, read at `(e, 0)`. -/
theorem column_apply {α : Type} (hb3 : SE.BroadcastsInDim SE1 ![0]) (d : SE.Idx → α) (e : Fin 1700000) :
    broadcastInDim SE1 ![0] hb3 d (ix2 e (0 : Fin 1)) = d (ix1 e) :=
  broadcastInDim_apply ![0] hb3 _ (ix2 e (0 : Fin 1)) (ix1 e) (fun a => by
    match a with
    | ⟨0, _⟩ => rfl)

/-- The zero array at any index. -/
theorem zeros_apply {t : Shape} (hbz : S0.BroadcastsInDim t ![]) (i : t.Idx) :
    broadcastInDim t ![] hbz (constant (F := Ideal) S0 .f32 0x00000000#32) i = (0 : EReal) := by
  rw [broadcastInDim_apply ![] hbz _ i ix0 (fun a => a.elim0), constant_apply]
  exact Ideal.ofBits_zero_f32

/-! ## The two spellings of the aggregation agree -/

/-- THE AGGREGATION: scaling the summed rows by `dis[c]` is summing the rows scaled by `dis[row e] · dis[col e]`,
    when every `dis[c]` is a non-negative real and a kept edge's gather index of `col e` is `col e`. -/
theorem agg_eq
    (gd : GatherDims SNC SE1 SEC)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, 64])
    (gd1 : GatherDims SN SE1 SE)
    (t1 : gd1.offsetDims = []) (t2 : gd1.collapsedSliceDims = [0]) (t3 : gd1.operandBatchingDims = [])
    (t4 : gd1.startIndicesBatchingDims = []) (t5 : gd1.startIndexMap = [0]) (t6 : gd1.indexVectorDim = 1)
    (t7 : gd1.sliceSizes = ![1])
    (sd : ScatterDims SNC SE1 SEC)
    (s1 : sd.updateWindowDims = [1]) (s2 : sd.insertedWindowDims = [0]) (s3 : sd.scatterDimsToOperandDims = [0])
    (s4 : sd.indexVectorDim = 1)
    (hb1 : SN.BroadcastsInDim SN1 ![0]) (hb2 : SN1.BroadcastsInDim SNC ![0, 1]) (hbz : S0.BroadcastsInDim SNC ![])
    (hb3 : SE.BroadcastsInDim SE1 ![0]) (hb4 : SE1.BroadcastsInDim SEC ![0, 1])
    (dis : FVec Ideal SN .f32) (hdis : ∀ i, ∃ r : ℝ, 0 ≤ r ∧ dis i = ((r : ℝ) : EReal))
    (h : FVec Ideal SNC .f32) (Rw Cw Craw : IVec SE1 32)
    (hC : ∀ (e : Fin 1700000) (n : Fin 100000), (Craw (ix2 e (0 : Fin 1))).toInt = (n.val : Int) →
      clamp (Cw (ix2 e (0 : Fin 1))) = n) :
    mulf (broadcastInDim SNC ![0, 1] hb2 (broadcastInDim SN1 ![0] hb1 dis))
      (Host.scatterAdd sd (broadcastInDim SNC ![] hbz (constant (F := Ideal) S0 .f32 0x00000000#32)) Craw
        (Host.gather gd (mulf (broadcastInDim SNC ![0, 1] hb2 (broadcastInDim SN1 ![0] hb1 dis)) h) Rw))
    = Host.scatterAdd sd (broadcastInDim SNC ![] hbz (constant (F := Ideal) S0 .f32 0x00000000#32)) Craw
        (mulf (broadcastInDim SEC ![0, 1] hb4 (broadcastInDim SE1 ![0] hb3
            (mulf (Host.gather gd1 dis Rw) (Host.gather gd1 dis Cw))))
          (Host.gather gd h Rw)) := by
  funext i
  obtain ⟨c, j, rfl⟩ : ∃ (c : Fin 100000) (j : Fin 64), i = ix2 c j := ⟨i 0, i 1, eq_ix2 i⟩
  obtain ⟨r, hr0, hr⟩ := hdis (ix1 c)
  rw [mulf_apply, rows_apply, scatterAdd_apply, scatterAdd_apply, zeros_apply, zero_add, zero_add, hr,
    coe_nonneg_mul_sum hr0]
  refine Finset.sum_congr rfl fun u hu => ?_
  obtain ⟨e, k, rfl⟩ : ∃ (e : Fin 1700000) (k : Fin 64), u = ix2 e k := ⟨u 0, u 1, eq_ix2 u⟩
  have hland := rowScatter_resultIdx_some' sd s1 s2 s3 s4 Craw e k (ix2 c j) (Finset.mem_filter.mp hu).2
  have hcol : clamp (Cw (ix2 e (0 : Fin 1))) = c := hC e c hland.1
  simp only [rowGather_apply' (N := 100000) (by decide) gd g1 g2 g3 g4 g5 g6 g7, mulf_apply]
  rw [rows_apply, edges_apply, mulf_apply,
    takeGather_apply' (N := 100000) (by decide) gd1 t1 t2 t3 t4 t5 t6 t7 dis Rw e,
    takeGather_apply' (N := 100000) (by decide) gd1 t1 t2 t3 t4 t5 t6 t7 dis Cw e]
  show (r : EReal) * (dis (ix1 (clamp (Rw (ix2 e (0 : Fin 1))))) * h (ix2 (clamp (Rw (ix2 e (0 : Fin 1)))) k))
    = dis (ix1 (clamp (Rw (ix2 e (0 : Fin 1))))) * dis (ix1 (clamp (Cw (ix2 e (0 : Fin 1)))))
      * h (ix2 (clamp (Rw (ix2 e (0 : Fin 1)))) k)
  rw [hcol, hr, mul_left_comm, mul_assoc]

/-! ## The degree and its inverse square root -/

/-- A sum of ones over a finite set is the number of its elements. -/
theorem sum_ones {ι : Type*} (s : Finset ι) : (∑ _j ∈ s, (1 : EReal)) = (((s.card : ℕ) : ℝ) : EReal) := by
  classical
  induction s using Finset.induction_on with
  | empty => simp
  | insert a s ha ih =>
    rw [Finset.sum_insert ha, ih, Finset.card_insert_of_notMem ha, Nat.cast_add, Nat.cast_one, add_comm, EReal.coe_add,
      EReal.coe_one]

/-- The binary32 word of `1.0` is one. -/
theorem one_word : Ideal.ofBits .f32 0x3F800000#32 = (1 : EReal) := by
  simp [Ideal.ofBits, Ideal.ieee]
  rw [← EReal.coe_mul, ← EReal.coe_one, EReal.coe_eq_coe_iff]
  norm_num

/-- THE DEGREE is a positive real when every node has a self loop among the edges: the scatter-add of ones over the
    edges' `row` into zeros, read at node `i`, counts the edges with `row e = i`, and the self loop is one. -/
theorem deg_pos
    (sd1 : ScatterDims SN SE1 SE)
    (u1 : sd1.updateWindowDims = []) (u2 : sd1.insertedWindowDims = [0]) (u3 : sd1.scatterDimsToOperandDims = [0])
    (u4 : sd1.indexVectorDim = 1)
    (hbz : S0.BroadcastsInDim SN ![]) (hbo : S0.BroadcastsInDim SE ![])
    (Rraw : IVec SE1 32) (i : Fin 100000)
    (hloop : ∃ e : Fin 1700000, (Rraw (ix2 e (0 : Fin 1))).toInt = (i.val : Int)) :
    ∃ d : ℝ, 0 < d ∧
      Host.scatterAdd sd1 (broadcastInDim SN ![] hbz (constant (F := Ideal) S0 .f32 0x00000000#32)) Rraw
        (broadcastInDim SE ![] hbo (constant (F := Ideal) S0 .f32 0x3F800000#32)) (ix1 i) = ((d : ℝ) : EReal) := by
  obtain ⟨e, he⟩ := hloop
  refine ⟨((Finset.univ.filter (fun j => sd1.resultIdx? j Rraw = some (ix1 i))).card : ℝ), ?_, ?_⟩
  · have hmem : ix1 e ∈ Finset.univ.filter (fun j => sd1.resultIdx? j Rraw = some (ix1 i)) :=
      Finset.mem_filter.mpr ⟨Finset.mem_univ _, entryScatter_resultIdx_of_eq' sd1 u1 u2 u3 u4 Rraw e i he⟩
    exact_mod_cast Finset.card_pos.mpr ⟨_, hmem⟩
  · rw [scatterAdd_apply, zeros_apply, zero_add]
    rw [Finset.sum_congr rfl (fun j _ => show broadcastInDim SE ![] hbo (constant (F := Ideal) S0 .f32 0x3F800000#32) j
        = (1 : EReal) from by
      rw [broadcastInDim_apply ![] hbo _ j ix0 (fun a => a.elim0), constant_apply]; exact one_word)]
    exact sum_ones _

/-- A finite binary32 word is a real number. -/
theorem neg_half_word : ∃ y : ℝ, Ideal.ofBits .f32 0xBF000000#32 = ((y : ℝ) : EReal) := by
  refine ⟨-(1 / 2), ?_⟩
  simp [Ideal.ofBits, Ideal.ieee]
  rw [← EReal.coe_mul, EReal.coe_eq_coe_iff]
  norm_num

/-- A positive real to a real power is a non-negative real. -/
theorem pow_nonneg_real {d y : ℝ} (hd : 0 < d) : ∃ r : ℝ, 0 ≤ r ∧ Ideal.pow (d : EReal) (y : EReal) = ((r : ℝ) : EReal) :=
  ⟨Real.rpow d y, Real.rpow_nonneg hd.le y, Ideal.pow_coe_coe d y⟩

/-- The guard `deg > 0` holds at a positive real. -/
theorem cmp_gt_pos {d : ℝ} (hd : 0 < d) : Ideal.cmp .ogt (d : EReal) (0 : EReal) = 1#1 := by
  show BitVec.ofBool (decide ((0 : EReal) < (d : EReal))) = 1#1
  rw [decide_eq_true (by exact_mod_cast hd)]
  rfl

end Cert.Gcn

end
-- ==== Proof.GcnIndex.lean ====
/-
  The edge index columns of the aggregation: what a gather reads for an edge the scatter keeps.

  An index word `v` addresses node `n` in the scatter when, read signed and unclamped, it is `n`. The gather reads
  its index wrapped (`v + N` when `v < 0`) and then clamped into `[0, N - 1]`. For a word that is a node number
  `0 ≤ n < N` the wrap does nothing (it is not negative) and the clamp does nothing (it is in range): the gather reads
  node `n` too. And the self loop of node `i` — the `i`-th entry after the edge list proper, an `iota` — is the word `i`.
-/
import Idealize.ShloMosaic.PureOps.Ideal
import Idealize.ShloMosaic.Lib.ValueIdx
import Idealize.ShloMosaic.Lib.Pipeline.Value
import proofs.«177543_j43164421325168_2_alg».proof.Proof.GcnAlgebra

noncomputable section

namespace Cert.Gcn

open Idealize.ShloMosaic Idealize.ShloMosaic.ValueIdx

/-- A word that reads signed as the node number `n` clamps to `n`. -/
theorem clamp_of_toInt {v : BitVec 32} {n : Fin 100000} (h : v.toInt = (n.val : Int)) : clamp v = n := by
  unfold clamp
  apply Fin.ext
  show min v.toInt.toNat (100000 - 1) = n.val
  rw [h, Int.toNat_natCast]
  have := n.isLt
  omega

/-- A word that reads signed as a node number is not negative. -/
theorem not_slt_zero {v : BitVec 32} {n : Fin 100000} (h : v.toInt = (n.val : Int)) :
    IntOp.cmpi .slt v 0#32 = 0#1 := by
  show BitVec.ofBool (v.slt 0#32) = 0#1
  have hs : v.slt 0#32 = false := by
    unfold BitVec.slt
    rw [decide_eq_false_iff_not, h]
    simp
  rw [hs]
  rfl

/-- THE GATHER'S INDEX OF A KEPT EDGE: when the raw column entry of edge `e` is the node number `n`, the wrapped
    column's entry clamps to `n`. -/
theorem wrap_kept (hb3 : SE.BroadcastsInDim SE1 ![0]) (hbs : S0.BroadcastsInDim SE ![])
    (v : IVec SE 32) (e : Fin 1700000) (n : Fin 100000)
    (h : (broadcastInDim SE1 ![0] hb3 v (ix2 e (0 : Fin 1))).toInt = (n.val : Int)) :
    clamp (broadcastInDim SE1 ![0] hb3
      (select (cmpi .slt v (broadcastInDim SE ![] hbs (constantI S0 32 0#32)))
        (addi v (broadcastInDim SE ![] hbs (constantI S0 32 100000#32))) v) (ix2 e (0 : Fin 1))) = n := by
  rw [column_apply] at h ⊢
  rw [select_apply]
  have hz : broadcastInDim SE ![] hbs (constantI S0 32 0#32) (ix1 e) = 0#32 :=
    broadcastInDim_apply ![] hbs _ (ix1 e) ix0 (fun a => a.elim0)
  have hc : cmpi .slt v (broadcastInDim SE ![] hbs (constantI S0 32 0#32)) (ix1 e) = 0#1 := by
    show IntOp.cmpi .slt (v (ix1 e)) (broadcastInDim SE ![] hbs (constantI S0 32 0#32) (ix1 e)) = 0#1
    rw [hz]
    exact not_slt_zero h
  rw [hc, select_zero]
  exact clamp_of_toInt h

end Cert.Gcn

end
-- ==== Proof.GcnDegree.lean ====
/-
  The self loops, and what they give the degree's inverse square root.

  The edge list's source nodes are the edge index's first row followed by `0, 1, …, N - 1`: entry `E + i` is the word
  `i`, a self loop at node `i`. So every node's degree — the count of the edges it is the source of — is a positive
  real, `deg ^ (-1/2)` is a non-negative real at every node, and guarding it by `deg > 0` changes nothing.
-/
import Idealize.ShloMosaic.PureOps.Ideal
import Idealize.ShloMosaic.PureOps.Ideal.Laws
import Idealize.ShloMosaic.Lib.ValueIdx
import Idealize.ShloMosaic.Lib.Pipeline.Value
import proofs.«177543_j43164421325168_2_alg».proof.Proof.GcnAlgebra

set_option maxRecDepth 16384

noncomputable section

namespace Cert.Gcn

open Idealize.ShloMosaic Idealize.ShloMosaic.ValueIdx

/-- A node number as a 32-bit word reads signed as itself. -/
theorem ofNat_toInt (i : Fin 100000) : (BitVec.ofNat 32 i.val).toInt = (i.val : Int) := by
  have hi := i.isLt
  rw [BitVec.toInt_eq_toNat_cond, BitVec.toNat_ofNat]
  have h1 : i.val % 2 ^ 32 = i.val := Nat.mod_eq_of_lt (by omega)
  rw [h1, if_pos (by omega)]

/-- THE SELF LOOP of node `i`: entry `1600000 + i` of the source column is the word `i`. -/
theorem self_loop (hcat : Shape.Concatenates [(⟨1, ![1600000]⟩ : Shape), SN] SE 0) (hb3 : SE.BroadcastsInDim SE1 ![0])
    (x₁ : (⟨1, ![1600000]⟩ : Shape).Idx → BitVec 32) (i : Fin 100000) :
    ∃ e : Fin 1700000, (broadcastInDim SE1 ![0] hb3
      (concatenate SE 0 [⟨(⟨1, ![1600000]⟩ : Shape), x₁⟩, ⟨SN, iotaInDim SN 32 0⟩] hcat) (ix2 e (0 : Fin 1))).toInt
        = (i.val : Int) := by
  have hi := i.isLt
  refine ⟨⟨1600000 + i.val, by omega⟩, ?_⟩
  rw [column_apply]
  rw [concatenate_pair_apply_right (0 : Fin 1) x₁ (iotaInDim SN 32 0) hcat (ix1 ⟨1600000 + i.val, by omega⟩) rfl rfl (ix1 i)
    (fun b hb => absurd (Subsingleton.elim _ _) hb) (by show i.val + 1600000 = 1600000 + i.val; omega)]
  exact ofNat_toInt i

section Degree

variable (sd1 : ScatterDims SN SE1 SE)
  (u1 : sd1.updateWindowDims = []) (u2 : sd1.insertedWindowDims = [0]) (u3 : sd1.scatterDimsToOperandDims = [0])
  (u4 : sd1.indexVectorDim = 1)
  (hbz : S0.BroadcastsInDim SN ![]) (hbo : S0.BroadcastsInDim SE ![])
  (Rraw : IVec SE1 32)
  (hloop : ∀ i : Fin 100000, ∃ e : Fin 1700000, (Rraw (ix2 e (0 : Fin 1))).toInt = (i.val : Int))

/-- The host's power, entry by entry. -/
theorem powf_apply {s : Shape} (a b : FVec Ideal s .f32) (i : s.Idx) : Host.powf a b i = Ideal.pow (a i) (b i) := rfl

/-- The exponent array at any index is a real. -/
theorem neg_half_apply (i : SN.Idx) : ∃ y : ℝ,
    broadcastInDim SN ![] hbz (constant (F := Ideal) S0 .f32 0xBF000000#32) i = ((y : ℝ) : EReal) := by
  obtain ⟨y, hy⟩ := neg_half_word
  refine ⟨y, ?_⟩
  rw [broadcastInDim_apply ![] hbz _ i ix0 (fun a => a.elim0), constant_apply]
  exact hy

include u1 u2 u3 u4 hloop in
/-- `deg ^ (-1/2)` is a non-negative real at every node. -/
theorem dis_real (i : SN.Idx) : ∃ r : ℝ, 0 ≤ r ∧
    Host.powf (Host.scatterAdd sd1 (broadcastInDim SN ![] hbz (constant (F := Ideal) S0 .f32 0x00000000#32)) Rraw
        (broadcastInDim SE ![] hbo (constant (F := Ideal) S0 .f32 0x3F800000#32)))
      (broadcastInDim SN ![] hbz (constant (F := Ideal) S0 .f32 0xBF000000#32)) i = ((r : ℝ) : EReal) := by
  obtain ⟨n, rfl⟩ : ∃ n : Fin 100000, i = ix1 n := ⟨i 0, eq_ix1 i⟩
  obtain ⟨d, hd, hdeg⟩ := deg_pos sd1 u1 u2 u3 u4 hbz hbo Rraw n (hloop n)
  obtain ⟨y, hy⟩ := neg_half_apply hbz (ix1 n)
  obtain ⟨r, hr0, hr⟩ := pow_nonneg_real (y := y) hd
  refine ⟨r, hr0, ?_⟩
  rw [powf_apply, hdeg, hy, hr]

include u1 u2 u3 u4 hloop in
/-- The guard `deg > 0` holds at every node: the guarded inverse square root is the unguarded one. -/
theorem dis_guard :
    select (cmpf .ogt (Host.scatterAdd sd1 (broadcastInDim SN ![] hbz (constant (F := Ideal) S0 .f32 0x00000000#32)) Rraw
          (broadcastInDim SE ![] hbo (constant (F := Ideal) S0 .f32 0x3F800000#32)))
        (broadcastInDim SN ![] hbz (constant (F := Ideal) S0 .f32 0x00000000#32)))
      (Host.powf (Host.scatterAdd sd1 (broadcastInDim SN ![] hbz (constant (F := Ideal) S0 .f32 0x00000000#32)) Rraw
          (broadcastInDim SE ![] hbo (constant (F := Ideal) S0 .f32 0x3F800000#32)))
        (broadcastInDim SN ![] hbz (constant (F := Ideal) S0 .f32 0xBF000000#32)))
      (broadcastInDim SN ![] hbz (id (constant (F := Ideal) S0 .f32 0x00000000#32)))
    = Host.powf (Host.scatterAdd sd1 (broadcastInDim SN ![] hbz (constant (F := Ideal) S0 .f32 0x00000000#32)) Rraw
          (broadcastInDim SE ![] hbo (constant (F := Ideal) S0 .f32 0x3F800000#32)))
        (broadcastInDim SN ![] hbz (constant (F := Ideal) S0 .f32 0xBF000000#32)) := by
  funext i
  obtain ⟨n, rfl⟩ : ∃ n : Fin 100000, i = ix1 n := ⟨i 0, eq_ix1 i⟩
  obtain ⟨d, hd, hdeg⟩ := deg_pos sd1 u1 u2 u3 u4 hbz hbo Rraw n (hloop n)
  rw [select_apply]
  have hc : cmpf .ogt (Host.scatterAdd sd1 (broadcastInDim SN ![] hbz (constant (F := Ideal) S0 .f32 0x00000000#32)) Rraw
          (broadcastInDim SE ![] hbo (constant (F := Ideal) S0 .f32 0x3F800000#32)))
        (broadcastInDim SN ![] hbz (constant (F := Ideal) S0 .f32 0x00000000#32)) (ix1 n) = 1#1 := by
    rw [cmpf_apply, Ideal.cmpf_def, hdeg, zeros_apply]
    exact cmp_gt_pos hd
  rw [hc, select_one]

end Degree

end Cert.Gcn

end
-- ==== Proof.Same.lean ====
/-
  The two programs compute one function.

  Both results are `tanh` of the second layer's aggregation of the dense layer of `tanh` of the first layer's aggregation
  of the dense layer of the node features. Three things differ in the spelling and none in the value on the extended
  reals: the kernel program's dense layers are launches (read as `x · Wᵀ + b` with the bias a row) where the reference's
  are a host product with the transposed weights; the kernel program takes the factor `dis[col e]` out of each
  aggregation's sum and guards `dis` by `deg > 0`, where the reference multiplies every message by
  `dis[row e] · dis[col e]` and leaves `dis` unguarded — equal because every degree counts a self loop, so `dis` is a
  non-negative real at every node, and a product with a non-negative real distributes over any finite sum of extended
  reals; and the kernel program takes its last tangent through a [50000, 128] view of the array and back.
-/
import proofs.«177543_j43164421325168_2_alg».proof.Defs
import proofs.«177543_j43164421325168_2_alg».proof.Proof.KernelRun
import proofs.«177543_j43164421325168_2_alg».proof.Proof.KernelValue
import proofs.«177543_j43164421325168_2_alg».proof.Proof.RefValue
import proofs.«177543_j43164421325168_2_alg».proof.Proof.GcnAlgebra
import proofs.«177543_j43164421325168_2_alg».proof.Proof.GcnIndex
import proofs.«177543_j43164421325168_2_alg».proof.Proof.GcnDegree
import proofs.«177543_j43164421325168_2_alg».proof.Proof.LinSpec
import proofs.«177543_j43164421325168_2_alg».proof.Proof.Gen.Kernel.Frame
import proofs.«177543_j43164421325168_2_alg».proof.Proof.Gen.Pre_finite_inputs

set_option maxRecDepth 16384

noncomputable section

namespace Cert.Proof.Same

open Idealize.ShloMosaic Idealize.ShloMosaic.TcCoe Idealize.ShloMosaic.ValueIdx Idealize.SL.Sem

/-- Every node has a self loop in the source column. -/
theorem loops (ei : IVec Cert.KernelIdeal.S2x1600000 32) (i : Fin 100000) :
    ∃ e : Fin 1700000, (broadcastInDim Cert.KernelIdeal.S1700000x1 ![0] Cert.KernelIdeal.Gen.bcast_S1700000_S1700000x1_0
      (Cert.KernelIdeal.Val.rowIdx ei) (ix2 e (0 : Fin 1))).toInt = (i.val : Int) := by
  unfold Cert.KernelIdeal.Val.rowIdx
  exact Cert.Gcn.self_loop _ _ _ i

/-- The guarded inverse square root of the degree is the unguarded one. -/
theorem dis_same (ei : IVec Cert.KernelIdeal.S2x1600000 32) :
    Cert.KernelIdeal.Val.disK (Cert.KernelIdeal.Val.rowIdx ei) = Cert.ReferenceIdeal.RefVal.disR (Cert.ReferenceIdeal.RefVal.rowIdx ei) := by
  unfold Cert.KernelIdeal.Val.disK Cert.KernelIdeal.Val.degK Cert.ReferenceIdeal.RefVal.disR Cert.ReferenceIdeal.RefVal.degR
  exact Cert.Gcn.dis_guard _ rfl rfl rfl rfl _ _ _ (loops ei)

/-- The inverse square root of the degree is a non-negative real at every node. -/
theorem dis_nonneg (ei : IVec Cert.KernelIdeal.S2x1600000 32) (i : Cert.Gcn.SN.Idx) :
    ∃ r : ℝ, 0 ≤ r ∧ Cert.ReferenceIdeal.RefVal.disR (Cert.ReferenceIdeal.RefVal.rowIdx ei) i = ((r : ℝ) : EReal) := by
  unfold Cert.ReferenceIdeal.RefVal.disR Cert.ReferenceIdeal.RefVal.degR
  exact Cert.Gcn.dis_real _ rfl rfl rfl rfl _ _ _ (loops ei) i

/-- THE AGGREGATIONS AGREE: the factor `dis[col e]` taken out of the sum, or left in every message. -/
theorem agg_same (ei : IVec Cert.KernelIdeal.S2x1600000 32) (H : FVec Ideal Cert.KernelIdeal.S100000x64 .f32) :
    Cert.KernelIdeal.Val.aggK (Cert.KernelIdeal.Val.disK (Cert.KernelIdeal.Val.rowIdx ei)) (Cert.KernelIdeal.Val.rowIdx ei) (Cert.KernelIdeal.Val.colIdx ei) H
      = Cert.ReferenceIdeal.RefVal.aggR (Cert.ReferenceIdeal.RefVal.disR (Cert.ReferenceIdeal.RefVal.rowIdx ei)) (Cert.ReferenceIdeal.RefVal.rowIdx ei) (Cert.ReferenceIdeal.RefVal.colIdx ei) H := by
  rw [dis_same]
  unfold Cert.KernelIdeal.Val.aggK Cert.ReferenceIdeal.RefVal.aggR Cert.KernelIdeal.Val.wrapCol Cert.ReferenceIdeal.RefVal.wrapCol
  exact Cert.Gcn.agg_eq _ rfl rfl rfl rfl rfl rfl rfl _ rfl rfl rfl rfl rfl rfl rfl _ rfl rfl rfl rfl _ _ _ _ _ _
    (dis_nonneg ei) H _ _ _ (fun e n h => Cert.Gcn.wrap_kept _ _ _ e n h)

/-- The tangent taken through the [50000, 128] view and back is the tangent. -/
theorem tanh_view (Z : FVec Ideal Cert.KernelIdeal.S100000x64 .f32) :
    shapeCast Cert.KernelIdeal.S100000x64 (Cert.KernelIdeal.Val.tanhFlat (shapeCast Cert.KernelIdeal.S50000x128 Z
        Cert.KernelIdeal.Gen.shapeCasts_S100000x64_S50000x128)) Cert.KernelIdeal.Gen.shapeCasts_S50000x128_S100000x64
      = Host.tanh Z := by
  have h : Cert.KernelIdeal.Val.tanhFlat (shapeCast Cert.KernelIdeal.S50000x128 Z Cert.KernelIdeal.Gen.shapeCasts_S100000x64_S50000x128)
      = shapeCast Cert.KernelIdeal.S50000x128 (fun i => Ideal.tanh (Z i)) Cert.KernelIdeal.Gen.shapeCasts_S100000x64_S50000x128 := rfl
  rw [h, shapeCast_shapeCast]
  rfl

/-- The host's tangent, entry by entry. -/
theorem tanh_entries {s : Shape} (Z : FVec Ideal s .f32) : Host.tanh Z = fun i => Ideal.tanh (Z i) := rfl

/-- ONE FUNCTION of the six arguments. -/
theorem value_same (x : FVec Ideal Cert.KernelIdeal.S100000x64 .f32) (ei : IVec Cert.KernelIdeal.S2x1600000 32)
    (w1 : FVec Ideal Cert.KernelIdeal.S64x64 .f32) (b1 : FVec Ideal Cert.KernelIdeal.S64 .f32)
    (w2 : FVec Ideal Cert.KernelIdeal.S64x64 .f32) (b2 : FVec Ideal Cert.KernelIdeal.S64 .f32) :
    Cert.ReferenceIdeal.RefVal.refValue x ei w1 b1 w2 b2 = Cert.KernelIdeal.Val.kernelValue x ei w1 b1 w2 b2 := by
  unfold Cert.KernelIdeal.Val.kernelValue Cert.KernelIdeal.Val.layer2 Cert.KernelIdeal.Val.layer1 Cert.ReferenceIdeal.RefVal.refValue
  rw [tanh_view, Cert.Gcn.linRow_reshape, Cert.Gcn.linRow_reshape, agg_same, agg_same, Cert.ReferenceIdeal.RefVal.denseR_eq, Cert.ReferenceIdeal.RefVal.denseR_eq]
  exact congrArg Host.tanh (congrArg _ (congrArg (fun t => Cert.Gcn.lin t w2 b2) (tanh_entries _)))

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs, run from memories agreeing on the arguments, end with the result at that one function. -/
theorem algebraic : Cert.algebraic_KernelIdeal_ReferenceIdeal := by
  intro m ρ m' ρ' _ hagree
  refine ⟨fun c => Cert.KernelIdeal.Val.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.kernel_value m ρ c), (h c).2⟩) (Cert.KernelIdeal.Val.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefVal.run_term, (hagree c).1, (hagree c).2.1, (hagree c).2.2.1, (hagree c).2.2.2.1, (hagree c).2.2.2.2.1,
      (hagree c).2.2.2.2.2]
    exact value_same _ _ _ _ _ _

end Cert.Proof.Same

end
-- ==== Proof.lean ====
/- The proof of `Cert.Claim`.

   The kernel program is three kernel launches — two dense layers `x · Wᵀ + b` (the second with a tangent fused in
   front) and a last tangent — among host gathers and scatter-adds that aggregate node features along the edges of a
   graph with the symmetric normalisation `deg^(-1/2)`; the reference is the same network as plain host operations.
   The three frames are the generated ones (the reference's is its generated run with the result dropped), the ideal
   pass rewrote nothing, and the two idealized programs end with equal results because both compute one function of
   the arguments on the extended reals (Proof/Same.lean): the kernel program's value is read off its run boundary by
   boundary (Proof/KernelRun.lean, KernelHost.lean, Launch0–2.lean, KernelValue.lean), the reference's off its generated
   run (Proof/RefValue.lean), and the aggregation's two spellings agree by the distributive law for a non-negative
   real factor (Proof/GcnAlgebra.lean, GcnIndex.lean, GcnDegree.lean). -/
import proofs.«177543_j43164421325168_2_alg».proof.Defs
import proofs.«177543_j43164421325168_2_alg».proof.Proof.Same
import proofs.«177543_j43164421325168_2_alg».proof.Proof.Gen.Kernel
import proofs.«177543_j43164421325168_2_alg».proof.Proof.Gen.Kernel.Skeleton
import proofs.«177543_j43164421325168_2_alg».proof.Proof.Gen.Kernel.Launch
import proofs.«177543_j43164421325168_2_alg».proof.Proof.Gen.Kernel.Points
import proofs.«177543_j43164421325168_2_alg».proof.Proof.Gen.Kernel.Frame
import proofs.«177543_j43164421325168_2_alg».proof.Proof.Gen.KernelIdeal
import proofs.«177543_j43164421325168_2_alg».proof.Proof.Gen.KernelIdeal.Skeleton
import proofs.«177543_j43164421325168_2_alg».proof.Proof.Gen.KernelIdeal.Launch
import proofs.«177543_j43164421325168_2_alg».proof.Proof.Gen.KernelIdeal.Points
import proofs.«177543_j43164421325168_2_alg».proof.Proof.Gen.KernelIdeal.Frame
import proofs.«177543_j43164421325168_2_alg».proof.Proof.Gen.ReferenceIdeal
import proofs.«177543_j43164421325168_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Same.frame_k, Same.frame_ki, Same.frame_ri, Same.preserves, Same.algebraic⟩

end Cert.Proof

end
